-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x128, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S_, .f32⟩
  | 70 => ⟨S850000, .f32⟩
  | 71 => ⟨S_, .f32⟩
  | 72 => ⟨S50000, .f32⟩
  | 73 => ⟨S850000x1, .i32⟩
  | 74 => ⟨S50000, .f32⟩
  | 75 => ⟨S_, .f32⟩
  | 76 => ⟨S50000, .f32⟩
  | 77 => ⟨S50000, .i1⟩
  | 78 => ⟨S50000, .f32⟩
  | 79 => ⟨S_, .f32⟩
  | 80 => ⟨S_, .f32⟩
  | 81 => ⟨S50000, .f32⟩
  | 82 => ⟨S50000, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S850000, .f32⟩
  | 102 => ⟨S50000x64, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x64, .f32⟩
  | 112 => ⟨S850000x1, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S50000, .f32⟩
  | 5 => ⟨S50000x1, .f32⟩
  | 6 => ⟨S50000x1, .f32⟩
  | 7 => ⟨S50000x64, .f32⟩
  | 8 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run, with its result array named.

  The program is nine segments: three stretches of host operations, the first matrix product, a stretch of host
  operations, the bias-and-relu region, the second matrix product, a stretch of host operations, the log-softmax region.
  Its frame run ends with every unscoped buffer of a core at the last boundary's contents, a fold through the nine
  segments from the launch memory. Here that final state is read at one more buffer than the frame reads: the result
  array, which therefore ends holding the fold's value at it; the six argument arrays end as launched.
-/
import proofs.«140220_j49005576848207_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array ends at the value the
    fold through the segments gives it, and the argument arrays end as launched. -/
theorem run_named : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Result

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.RegionProduct1.lean ====
/-
  The first matrix product (x · W1), region by region.

  The region runs ten grid points; at point t it loads rows 5000·t … 5000·t + 4999 of the left operand and the whole
  right operand, forms their matrix product into a zero accumulator and writes it back as rows 5000·t … of the output.
  At the ideal values a change of float format is the identity and the product is, entry (r, c), the sum over k of
  left (r, k) · right (k, c); since row r of a block is row 5000·t + r of the array, every block written back is the
  corresponding block of ONE array, the product of the whole operands, and the ten blocks tile the output: the output
  array ends holding that product.
-/
import proofs.«140220_j49005576848207_1_alg».proof.Proof.Gen.KernelIdeal.Frame
import proofs.«140220_j49005576848207_1_alg».proof.Proof.LibPlainDot
import Idealize.ShloMosaic.Lib.Pipeline.Value
import Idealize.ShloMosaic.Lib.ValueIdx

set_option maxRecDepth 16384

noncomputable section

namespace Cert.KernelIdeal.Product1

open Cert.KernelIdeal Cert.KernelIdeal.Gen Cert.Lib
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The product of the whole operands, as the region finds them. -/
def product (c : Dev nD) : S50000x128.Idx → EReal :=
  PlainDot.mm (R := 50000) (K := 128) (C := 128) (V c main_arg0) (V c main_arg2)

/-- The body's result on a block of rows, entry by entry: the sum over k of left (r, k) · right (k, c). -/
theorem block_product (x0 : Vec Ideal S5000x128 .f32) (x1 : Vec Ideal S128x128 .f32) (j : S5000x128.Idx) :
    k0_pay1 x0 x1 j = PlainDot.mm (R := 5000) (K := 128) (C := 128) x0 x1 j := by
  unfold k0_pay1
  exact PlainDot.matmul_zero_apply dot_S5000x128_S128x128_S5000x128_1_0_0_1_n_n rfl none _ _ j

/-- Where the three windows' blocks sit at each grid point: the row blocks of the left operand and of the output move
    together, one block per point; the right operand's one block stays. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole operands. -/
theorem written_back (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := block_positions t
  funext j
  show k0_pay1 (iblk0 V c 0 t) (iblk0 V c 1 t) j = product V c (((cfg0.win 2).blk t).view.emb j)
  rw [block_product]
  unfold product PlainDot.mm
  refine Finset.sum_congr rfl fun k _ => ?_
  have hl : ((cfg0.win 0).blk t).view.emb (PlainDot.rowIdx (R := 5000) (K := 128) (C := 128) j k)
      = PlainDot.rowIdx (R := 50000) (K := 128) (C := 128) (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hr : ((cfg0.win 1).blk t).view.emb (PlainDot.colIdx (R := 5000) (K := 128) (C := 128) j k)
      = PlainDot.colIdx (R := 50000) (K := 128) (C := 128) (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have el : iblk0 V c 0 t (PlainDot.rowIdx j k) = (V c main_arg0 : S50000x128.Idx → EReal) (PlainDot.rowIdx (((cfg0.win 2).blk t).view.emb j) k) :=
    congrArg (V c main_arg0) hl
  have er : iblk0 V c 1 t (PlainDot.colIdx j k) = (V c main_arg2 : S128x128.Idx → EReal) (PlainDot.colIdx (((cfg0.win 2).blk t).view.emb j) k) :=
    congrArg (V c main_arg2) hr
  rw [el, er]

/-- An index of the output is in point t's block iff its row lies in rows 5000·t … 5000·t + 4999. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten blocks tile the output: row r is in the block of point r / 5000. -/
theorem tiled (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by show (i 0).val / 5000 < 10; omega⟩, flush0_2 _, ?_⟩
  rw [mem_block]
  obtain ⟨e0, e1, e2, e3, e4, e5⟩ := block_positions ⟨(i 0).val / 5000, by show (i 0).val / 5000 < 10; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 128 ≤ (i 1).val ∧ (i 1).val < win0_2.index _ (1 : Fin 2) * 128 + 128; rw [e5]; omega

/-- The output array after the region: the product of the whole operands. -/
theorem output (c : Dev nD) : (dat0 V c).arrAt 2 cfg0.N = product V c :=
  (dat0 V c).arrAt_eq_of_cover 2 (product V c) (fun t _ => written_back V c t) tiled

end Cert.KernelIdeal.Product1

end
-- ==== Proof.RegionBiasRelu.lean ====
/-
  The bias-and-relu region, read as one function of its input arrays.

  At grid point t the region loads rows 5000·t … 5000·t + 4999 of the aggregated features and the whole one-row bias
  array, adds the bias to every row (the one row stretched over the block) and takes the larger of that sum and zero.
  Entry (r, c) of a block depends only on entry (r, c) of the features and entry (0, c) of the bias, so each block
  written back is the corresponding block of ONE array, max (a (r, c) + b (0, c)) 0 over the whole arrays; the ten
  blocks tile the output, which therefore ends holding that array.
-/
import proofs.«140220_j49005576848207_1_alg».proof.Proof.Gen.KernelIdeal.Frame
import Idealize.ShloMosaic.Lib.Pipeline.Value
import Idealize.ShloMosaic.Lib.ValueIdx

set_option maxRecDepth 16384

noncomputable section

namespace Cert.KernelIdeal.BiasRelu

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The entry of a one-row array that lies under entry `i` of an array of `n` rows. -/
abbrev under {n d : Nat} (i : (⟨2, ![n, d]⟩ : Shape).Idx) : (⟨2, ![1, d]⟩ : Shape).Idx := fun a => match a with
  | ⟨0, _⟩ => ⟨0, Nat.one_pos⟩
  | ⟨1, _⟩ => ⟨(i 1).val, (i 1).isLt⟩

/-- A row plus a one-row bias, cut off below at zero, entry by entry. -/
def rectified {n d : Nat} (a : (⟨2, ![n, d]⟩ : Shape).Idx → EReal) (b : (⟨2, ![1, d]⟩ : Shape).Idx → EReal) :
    (⟨2, ![n, d]⟩ : Shape).Idx → EReal :=
  fun i => max (a i + b (under i)) (Ideal.ofBits .f32 0x00000000#32)

/-- The region's function of the whole arrays, as the region finds them. -/
def result (c : Dev nD) : S50000x128.Idx → EReal :=
  rectified (n := 50000) (d := 128) (V c main_v43) (V c main_v44)

/-- The body's result on a block of rows, entry by entry. -/
theorem block_rectified (x0 : Vec Ideal S5000x128 .f32) (x1 : Vec Ideal S1x128 .f32) (j : S5000x128.Idx) :
    k1_pay1 x0 x1 j = rectified (n := 5000) (d := 128) x0 x1 j := by
  unfold k1_pay1 rectified
  show max (shapeCast S5000x128 x0 shapeCasts_S5000x128_S5000x128 j
      + broadcastTo S5000x128 (shapeCast S1x128 x1 shapeCasts_S1x128_S1x128) broadcasts_S1x128_S5000x128 j) _ = _
  rw [shapeCast_self, shapeCast_self, broadcastTo_apply x1 broadcasts_S1x128_S5000x128 j (under j) (fun a => by
    match a with
    | ⟨0, _⟩ => rfl
    | ⟨1, _⟩ => rfl)]
  rfl

/-- Where the three windows' blocks sit at each grid point. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the region's function of the whole arrays. -/
theorem written_back (c : Dev nD) (t : Fin cfg1.N) :
    (dat1 V c).flushed 2 t = ((cfg1.win 2).blk t).view.read (Elt Ideal) (result V c) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := block_positions t
  funext j
  show k1_pay1 (iblk1 V c 0 t) (iblk1 V c 1 t) j = result V c (((cfg1.win 2).blk t).view.emb j)
  rw [block_rectified]
  unfold result rectified
  have hl : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have hr : ((cfg1.win 1).blk t).view.emb (under (n := 5000) (d := 128) j) = under (n := 50000) (d := 128) (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  have el : iblk1 V c 0 t j = (V c main_v43 : S50000x128.Idx → EReal) (((cfg1.win 2).blk t).view.emb j) := congrArg (V c main_v43) hl
  have er : iblk1 V c 1 t (under j) = (V c main_v44 : S1x128.Idx → EReal) (under (((cfg1.win 2).blk t).view.emb j)) := congrArg (V c main_v44) hr
  rw [el, er]

/-- An index of the output is in point t's block iff its row lies in rows 5000·t … 5000·t + 4999. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The ten blocks tile the output: row r is in the block of point r / 5000. -/
theorem tiled (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  refine ⟨⟨(i 0).val / 5000, by show (i 0).val / 5000 < 10; omega⟩, flush1_2 _, ?_⟩
  rw [mem_block]
  obtain ⟨e0, e1, e2, e3, e4, e5⟩ := block_positions ⟨(i 0).val / 5000, by show (i 0).val / 5000 < 10; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ _ ∧ _ < (i 0).val / 5000 * 5000 + 5000; omega
  | ⟨1, _⟩ => show win1_2.index _ (1 : Fin 2) * 128 ≤ (i 1).val ∧ (i 1).val < win1_2.index _ (1 : Fin 2) * 128 + 128; rw [e5]; omega

/-- The output array after the region. -/
theorem output (c : Dev nD) : (dat1 V c).arrAt 2 cfg1.N = result V c :=
  (dat1 V c).arrAt_eq_of_cover 2 (result V c) (fun t _ => written_back V c t) tiled

end Cert.KernelIdeal.BiasRelu

end
-- ==== Proof.RegionProduct2.lean ====
/-
  The second matrix product (h1 · W2), region by region.

  The region runs ten grid points; at point t it loads rows 5000·t … 5000·t + 4999 of the left operand and the whole
  right operand, forms their matrix product into a zero accumulator and writes it back as rows 5000·t … of the output.
  At the ideal values a change of float format is the identity and the product is, entry (r, c), the sum over k of
  left (r, k) · right (k, c); since row r of a block is row 5000·t + r of the array, every block written back is the
  corresponding block of ONE array, the product of the whole operands, and the ten blocks tile the output: the output
  array ends holding that product.
-/
import proofs.«140220_j49005576848207_1_alg».proof.Proof.Gen.KernelIdeal.Frame
import proofs.«140220_j49005576848207_1_alg».proof.Proof.LibPlainDot
import Idealize.ShloMosaic.Lib.Pipeline.Value
import Idealize.ShloMosaic.Lib.ValueIdx

set_option maxRecDepth 16384

noncomputable section

namespace Cert.KernelIdeal.Product2

open Cert.KernelIdeal Cert.KernelIdeal.Gen Cert.Lib
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The product of the whole operands, as the region finds them. -/
def product (c : Dev nD) : S50000x64.Idx → EReal :=
  PlainDot.mm (R := 50000) (K := 128) (C := 64) (V c main_v45) (V c main_arg4)

/-- The body's result on a block of rows, entry by entry: the sum over k of left (r, k) · right (k, c). -/
theorem block_product (x0 : Vec Ideal S5000x128 .f32) (x1 : Vec Ideal S128x64 .f32) (j : S5000x64.Idx) :
    k2_pay1 x0 x1 j = PlainDot.mm (R := 5000) (K := 128) (C := 64) x0 x1 j := by
  unfold k2_pay1
  rw [shapeCast_self]
  exact PlainDot.matmul_zero_apply dot_S5000x128_S128x64_S5000x64_1_0_0_1_n_n rfl none _ _ j

/-- Where the three windows' blocks sit at each grid point: the row blocks of the left operand and of the output move
    together, one block per point; the right operand's one block stays. -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the whole operands. -/
theorem written_back (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x64) origin]
  obtain ⟨e0, e1, e2, e3, e4, e5⟩ := block_positions t
  funext j
  show k2_pay1 (iblk2 V c 0 t) (iblk2 V c 1 t) j = product V c (((cfg2.win 2).blk t).view.emb j)
  rw [block_product]
  unfold product PlainDot.mm
  refine Finset.sum_congr rfl fun k _ => ?_
  have hl : ((cfg2.win 0).blk t).view.emb (PlainDot.rowIdx (R := 5000) (K := 128) (C := 64) j k)
      = PlainDot.rowIdx (R := 50000) (K := 128) (C := 64) (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hr : ((cfg2.win 1).blk t).view.emb (PlainDot.colIdx (R := 5000) (K := 128) (C := 64) j k)
      = PlainDot.colIdx (R := 50000) (K := 128) (C := 64) (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  have el : iblk2 V c 0 t (PlainDot.rowIdx j k) = (V c main_v45 : S50000x128.Idx → EReal) (PlainDot.rowIdx (((cfg2.win 2).blk t).view.emb j) k) :=
    congrArg (V c main_v45) hl
  have er : iblk2 V c 1 t (PlainDot.colIdx j k) = (V c main_arg4 : S128x64.Idx → EReal) (PlainDot.colIdx (((cfg2.win 2).blk t).view.emb j) k) :=
    congrArg (V c main_arg4) hr
  rw [el, er]

/-- An index of the output is in point t's block iff its row lies in rows 5000·t … 5000·t + 4999. -/
theorem mem_block (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The ten blocks tile the output: row r is in the block of point r / 5000. -/
theorem tiled (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  refine ⟨⟨(i 0).val / 5000, by show (i 0).val / 5000 < 10; omega⟩, flush2_2 _, ?_⟩
  rw [mem_block]
  obtain ⟨e0, e1, e2, e3, e4, e5⟩ := block_positions ⟨(i 0).val / 5000, by show (i 0).val / 5000 < 10; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ _ ∧ _ < (i 0).val / 5000 * 5000 + 5000; omega
  | ⟨1, _⟩ => show win2_2.index _ (1 : Fin 2) * 64 ≤ (i 1).val ∧ (i 1).val < win2_2.index _ (1 : Fin 2) * 64 + 64; rw [e5]; omega

/-- The output array after the region: the product of the whole operands. -/
theorem output (c : Dev nD) : (dat2 V c).arrAt 2 cfg2.N = product V c :=
  (dat2 V c).arrAt_eq_of_cover 2 (product V c) (fun t _ => written_back V c t) tiled

end Cert.KernelIdeal.Product2

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.LibLogSoftmaxRow.lean ====
/-
  The logarithm of the softmax of a row of extended reals, in the two spellings a row-blocked kernel and a
  whole-array reference use, and the law that joins them.

  For a row L with largest entry M, a kernel computes L s − (log (Σ k, exp (L k − M)) + M) on a block of rows as a tree of
  vector operations — the row maxima kept as a column and stretched back over the rows, a pointwise exponential, the row
  sums kept as a column, their logarithm plus the column of maxima stretched back —; read at entry (r, s) that tree is
  `shiftedLog` of row r (`logSoftmax_rows_apply`). A reference computes (L s − M) − log (Σ k, exp (L k − M)). On the
  extended reals the two differ when the row holds an infinity (+∞ − +∞ is −∞); when every entry of a nonempty row is a
  real number, M is real, the sum of exponentials is a positive real, and the two are one real number (`spellings_agree`).
  Stated over arbitrary extents.
-/
import proofs.«140220_j49005576848207_1_alg».proof.Proof.LibRowLayout
import proofs.«140220_j49005576848207_1_alg».proof.Proof.LibRealSums
import Idealize.ShloMosaic.PureOps.Ideal.Laws
import Idealize.ShloMosaic.Lib.ValueLayout
import Idealize.ShloMosaic.PureOps.Reduce

noncomputable section

namespace Cert.Lib.LogSoftmaxRow

open Idealize.ShloMosaic Idealize.ShloMosaic.ValueIdx
open Cert.KernelIdeal.MvnKernel

/-- The largest entry of a row of extended reals (−∞ for the empty row). -/
def rowMax {n : ℕ} (L : Fin n → EReal) : EReal := (Finset.univ : Finset (Fin n)).fold max ⊥ L

/-- Entry `s` of the log-softmax of the row `L`, the maximum added back inside the subtracted term. -/
def shiftedLog {n : ℕ} (L : Fin n → EReal) (s : Fin n) : EReal :=
  L s - (Ideal.log (∑ k : Fin n, Ideal.exp (L k - rowMax L)) + rowMax L)

/-- Entry `s` of the log-softmax of the row `L`, the maximum subtracted first. -/
def logOfShifted {n : ℕ} (L : Fin n → EReal) (s : Fin n) : EReal :=
  (L s - rowMax L) - Ideal.log (∑ k : Fin n, Ideal.exp (L k - rowMax L))

/-- The f32 pattern of −∞ denotes the least extended real. -/
theorem ofBits_neg_inf : Ideal.ofBits .f32 0xFF800000#32 = ⊥ := by simp [Ideal.ofBits, Ideal.ieee]

/-- A block of rows put through the log-softmax tree of vector operations, read at entry (r, s). -/
theorem logSoftmax_rows_apply {a b : ℕ} (Z : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec FTy.f32.bits) = FKind.maximumf.neutral .f32 hφ)
    (hadd : (0x00000000#32 : BitVec FTy.f32.bits) = FKind.add.neutral .f32 hφ) (r : Fin a) (s : Fin b) :
    subf Z (broadcastTo ⟨2, ![a, b]⟩
      (addf
        (log (shapeCast ⟨2, ![a, 1]⟩
          (multiReduction .add [1] ⟨1, ![a]⟩
            (exp (subf Z (broadcastTo ⟨2, ![a, b]⟩ (shapeCast ⟨2, ![a, 1]⟩
              (multiReduction .maximumf [1] ⟨1, ![a]⟩ Z 0xFF800000#32 hr hφ hmax) hc) hb)))
            0x00000000#32 hr hφ hadd) hc))
        (shapeCast ⟨2, ![a, 1]⟩ (multiReduction .maximumf [1] ⟨1, ![a]⟩ Z 0xFF800000#32 hr hφ hmax) hc)) hb) (ix2 r s)
      = shiftedLog (fun k => Z (ix2 r k)) s := by
  -- the column of maxima holds, at row r, that row's maximum
  have hM : shapeCast ⟨2, ![a, 1]⟩ (multiReduction .maximumf [1] ⟨1, ![a]⟩ Z 0xFF800000#32 hr hφ hmax) hc (ix2 r (0 : Fin 1))
      = rowMax fun k => Z (ix2 r k) :=
    (shapeCast_a_a1_apply _ hc r 0).trans ((multiReduction_max_row Z _ hr hφ hmax r).trans (by rw [ofBits_neg_inf]; rfl))
  -- so the exponentials along row r are those of the row's log-softmax
  have hE : ∀ k : Fin b, exp (subf Z (broadcastTo ⟨2, ![a, b]⟩ (shapeCast ⟨2, ![a, 1]⟩
        (multiReduction .maximumf [1] ⟨1, ![a]⟩ Z 0xFF800000#32 hr hφ hmax) hc) hb)) (ix2 r k)
      = Ideal.exp (Z (ix2 r k) - rowMax fun k => Z (ix2 r k)) := fun k => by
    show Ideal.exp (Z (ix2 r k) - broadcastTo ⟨2, ![a, b]⟩ _ hb (ix2 r k)) = _
    rw [broadcastTo_a1_ab_apply _ hb r k, hM]
  show Z (ix2 r s) - broadcastTo ⟨2, ![a, b]⟩ _ hb (ix2 r s) = _
  rw [broadcastTo_a1_ab_apply _ hb r s]
  show Z (ix2 r s) - (Ideal.log (shapeCast ⟨2, ![a, 1]⟩ _ hc (ix2 r (0 : Fin 1))) + shapeCast ⟨2, ![a, 1]⟩ _ hc (ix2 r (0 : Fin 1))) = _
  rw [hM, shapeCast_a_a1_apply _ hc r 0, multiReduction_add_row _ _ hr hφ hadd r]
  unfold shiftedLog
  rw [Finset.sum_congr rfl fun k _ => hE k]

/-- The host's maximum over the second axis of a matrix, from −∞, read at row r: the row's largest entry. -/
theorem hostRowMax_apply {a b : ℕ} (Z : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf Z (constant (⟨0, ![]⟩ : Shape) .f32 0xFF800000#32) h' hu (ix1 r)
      = rowMax fun k => Z (ix2 r k) := by
  rw [Host.reduce_eq_fold_single FloatOps.maximumf Z _ h' h hu]
  show (Finset.univ : Finset (Fin b)).fold max (Ideal.ofBits .f32 0xFF800000#32) _ = _
  rw [ofBits_neg_inf]
  unfold rowMax
  refine congrArg ((Finset.univ : Finset (Fin b)).fold max ⊥) (funext fun k => ?_)
  exact congrArg Z (funext fun ax => Fin.ext (by
    match ax with
    | ⟨0, _⟩ => rfl
    | ⟨1, _⟩ => rfl))

/-- The maximum of a nonempty row of real numbers is a real number. -/
theorem rowMax_real {n : ℕ} (hn : 0 < n) (L : Fin n → EReal) (hL : ∀ k, ∃ x : ℝ, L k = x) : ∃ x : ℝ, rowMax L = x := by
  have key : ∀ t : Finset (Fin n), t = ∅ ∨ ∃ x : ℝ, t.fold max ⊥ L = x := by
    intro t
    induction t using Finset.induction_on with
    | empty => exact Or.inl rfl
    | insert i t hi ih =>
      right
      obtain ⟨x, hx⟩ := hL i
      rw [Finset.fold_insert hi, hx]
      rcases ih with rfl | ⟨y, hy⟩
      · exact ⟨x, by rw [Finset.fold_empty]; exact max_eq_left bot_le⟩
      · exact ⟨max x y, by rw [hy]; exact (EReal.coe_strictMono.monotone.map_max).symm⟩
  rcases key Finset.univ with h | h
  · exact absurd h (Finset.univ_nonempty_iff.mpr ⟨⟨0, hn⟩⟩).ne_empty
  · exact h

/-- On a nonempty row of real numbers the two spellings of the log-softmax are one number. -/
theorem spellings_agree {n : ℕ} (hn : 0 < n) (L : Fin n → EReal) (hL : ∀ k, ∃ x : ℝ, L k = x) (s : Fin n) :
    shiftedLog L s = logOfShifted L s := by
  obtain ⟨M, hM⟩ := rowMax_real hn L hL
  choose l hl using hL
  unfold shiftedLog logOfShifted
  rw [hM]
  have hsum : (∑ k : Fin n, Ideal.exp (L k - (M : EReal))) = ((∑ k : Fin n, Real.exp (l k - M) : ℝ) : EReal) := by
    rw [Cert.Lib.RealSums.coe_sum]
    exact Finset.sum_congr rfl fun k _ => by rw [hl k, ← EReal.coe_sub]; rfl
  have hpos : 0 < ∑ k : Fin n, Real.exp (l k - M) :=
    Finset.sum_pos (fun k _ => Real.exp_pos _) (Finset.univ_nonempty_iff.mpr ⟨⟨0, hn⟩⟩)
  rw [hsum, hl s, Ideal.log_coe, if_neg (not_le.mpr hpos)]
  rw [← EReal.coe_add, ← EReal.coe_sub, ← EReal.coe_sub, ← EReal.coe_sub]
  congr 1
  ring

end Cert.Lib.LogSoftmaxRow

end
-- ==== Proof.RegionBiasLogSoftmax.lean ====
/-
  The bias-and-log-softmax region, read as one function of its input arrays.

  At grid point t the region loads rows 5000·t … 5000·t + 4999 of the aggregated features and the whole one-row bias,
  adds the bias to every row, and replaces each row L of the sum by L s − (log (Σ k, exp (L k − M)) + M), M the row's
  largest entry. Row r of a block depends only on row 5000·t + r of the features and on the bias row, so each block
  written back is the corresponding block of ONE array: the log-softmax, in that spelling, of every row of
  "features plus bias" over the whole arrays. The ten blocks tile the output, which ends holding that array.
-/
import proofs.«140220_j49005576848207_1_alg».proof.Proof.Gen.KernelIdeal.Frame
import proofs.«140220_j49005576848207_1_alg».proof.Proof.LibLogSoftmaxRow
import Idealize.ShloMosaic.Lib.Pipeline.Value
import Idealize.ShloMosaic.Lib.ValueIdx

set_option maxRecDepth 16384

noncomputable section

namespace Cert.KernelIdeal.BiasLogSoftmax

open Cert.KernelIdeal Cert.KernelIdeal.Gen Cert.Lib
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The entry of a one-row array that lies under entry `i` of an array of `n` rows. -/
abbrev under {n d : Nat} (i : (⟨2, ![n, d]⟩ : Shape).Idx) : (⟨2, ![1, d]⟩ : Shape).Idx := fun a => match a with
  | ⟨0, _⟩ => ⟨0, Nat.one_pos⟩
  | ⟨1, _⟩ => ⟨(i 1).val, (i 1).isLt⟩

/-- An array of rows plus a one-row bias. -/
def biased {n d : Nat} (a : (⟨2, ![n, d]⟩ : Shape).Idx → EReal) (b : (⟨2, ![1, d]⟩ : Shape).Idx → EReal) :
    (⟨2, ![n, d]⟩ : Shape).Idx → EReal := fun i => a i + b (under i)

/-- Every row of "rows plus bias" replaced by its log-softmax, the maximum added back inside the subtracted term. -/
def rowsLogSoftmax {n d : Nat} (a : (⟨2, ![n, d]⟩ : Shape).Idx → EReal) (b : (⟨2, ![1, d]⟩ : Shape).Idx → EReal) :
    (⟨2, ![n, d]⟩ : Shape).Idx → EReal :=
  fun i => LogSoftmaxRow.shiftedLog (fun k : Fin d => biased a b (ix2 (i 0) k)) (i 1)

/-- The region's function of the whole arrays, as the region finds them. -/
def result (c : Dev nD) : S50000x64.Idx → EReal :=
  rowsLogSoftmax (n := 50000) (d := 64) (V c main_v59) (V c main_v60)

/-- The body's result on a block of rows, entry by entry. -/
theorem block_logSoftmax (x0 : Vec Ideal S5000x64 .f32) (x1 : Vec Ideal S1x64 .f32) (p : Fin 5000) (q : Fin 64) :
    k3_pay1 x0 x1 (ix2 p q) = rowsLogSoftmax (n := 5000) (d := 64) x0 x1 (ix2 p q) := by
  unfold k3_pay1 rowsLogSoftmax
  refine (LogSoftmaxRow.logSoftmax_rows_apply (a := 5000) (b := 64)
    (addf (shapeCast S5000x64 x0 shapeCasts_S5000x64_S5000x64)
      (broadcastTo S5000x64 (shapeCast S1x64 x1 shapeCasts_S1x64_S1x64) broadcasts_S1x64_S5000x64))
    reduces_S5000x64_S5000 shapeCasts_S5000_S5000x1 broadcasts_S5000x1_S5000x64 (.inl rfl) rfl rfl p q).trans ?_
  refine congrArg (fun L => LogSoftmaxRow.shiftedLog L q) (funext fun k => ?_)
  show shapeCast S5000x64 x0 shapeCasts_S5000x64_S5000x64 (ix2 p k)
      + broadcastTo S5000x64 (shapeCast S1x64 x1 shapeCasts_S1x64_S1x64) broadcasts_S1x64_S5000x64 (ix2 p k) = _
  rw [shapeCast_self, shapeCast_self, broadcastTo_apply x1 broadcasts_S1x64_S5000x64 (ix2 p k) (under (ix2 p k)) (fun a => by
    match a with
    | ⟨0, _⟩ => rfl
    | ⟨1, _⟩ => rfl)]
  rfl

/-- Where the three windows' blocks sit at each grid point. -/
theorem block_positions : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the region's function of the whole arrays. -/
theorem written_back (c : Dev nD) (t : Fin cfg3.N) :
    (dat3 V c).flushed 2 t = ((cfg3.win 2).blk t).view.read (Elt Ideal) (result V c) := by
  show (cfg3.win 2).cut (grid3.coords t) ((dat3 V c).after 2 t) = _
  rw [after3_2]
  unfold out3_2
  rw [View.canon_unit_zero origin]
  simp only [View.ld_unit_zero (S := S5000x64) origin, View.ld_unit_zero (S := S1x64) origin]
  obtain ⟨e0, e1, e2, e3, e4, e5⟩ := block_positions t
  funext j
  obtain ⟨p, q, rfl⟩ : ∃ (p : Fin 5000) (q : Fin 64), j = ix2 p q := ⟨j 0, j 1, eq_ix2 j⟩
  show k3_pay1 (iblk3 V c 0 t) (iblk3 V c 1 t) (ix2 p q) = result V c (((cfg3.win 2).blk t).view.emb (ix2 p q))
  rw [block_logSoftmax]
  unfold result rowsLogSoftmax
  have hq : ((cfg3.win 2).blk t).view.emb (ix2 p q) 1 = q :=
    Fin.ext (by show win3_2.index t (1 : Fin 2) * 64 + 1 * q.val = q.val; omega)
  rw [hq]
  refine congrArg (fun L => LogSoftmaxRow.shiftedLog L q) (funext fun k => ?_)
  unfold biased
  have hl : ((cfg3.win 0).blk t).view.emb (ix2 p k) = ix2 (((cfg3.win 2).blk t).view.emb (ix2 p q) 0) k := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * k.val = k.val; omega
  have hr : ((cfg3.win 1).blk t).view.emb (under (n := 5000) (d := 64) (ix2 p k))
      = under (n := 50000) (d := 64) (ix2 (((cfg3.win 2).blk t).view.emb (ix2 p q) 0) k) := by
    funext a; apply Fin.ext
    match a with
    | ⟨0, _⟩ => show win3_1.index t (0 : Fin 2) * 1 + 1 * 0 = 0; omega
    | ⟨1, _⟩ => show win3_1.index t (1 : Fin 2) * 64 + 1 * k.val = k.val; omega
  have el : iblk3 V c 0 t (ix2 p k) = (V c main_v59 : S50000x64.Idx → EReal) (ix2 (((cfg3.win 2).blk t).view.emb (ix2 p q) 0) k) :=
    congrArg (V c main_v59) hl
  have er : iblk3 V c 1 t (under (ix2 p k)) = (V c main_v60 : S1x64.Idx → EReal) (under (ix2 (((cfg3.win 2).blk t).view.emb (ix2 p q) 0) k)) :=
    congrArg (V c main_v60) hr
  rw [el, er]
  rfl

/-- An index of the output is in point t's block iff its row lies in rows 5000·t … 5000·t + 4999. -/
theorem mem_block (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The ten blocks tile the output: row r is in the block of point r / 5000. -/
theorem tiled (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  refine ⟨⟨(i 0).val / 5000, by show (i 0).val / 5000 < 10; omega⟩, flush3_2 _, ?_⟩
  rw [mem_block]
  obtain ⟨e0, e1, e2, e3, e4, e5⟩ := block_positions ⟨(i 0).val / 5000, by show (i 0).val / 5000 < 10; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ _ ∧ _ < (i 0).val / 5000 * 5000 + 5000; omega
  | ⟨1, _⟩ => show win3_2.index _ (1 : Fin 2) * 64 ≤ (i 1).val ∧ (i 1).val < win3_2.index _ (1 : Fin 2) * 64 + 64; rw [e5]; omega

/-- The output array after the region. -/
theorem output (c : Dev nD) : (dat3 V c).arrAt 2 cfg3.N = result V c :=
  (dat3 V c).arrAt_eq_of_cover 2 (result V c) (fun t _ => written_back V c t) tiled

end Cert.KernelIdeal.BiasLogSoftmax

end
-- ==== Proof.Fold.lean ====
/-
  The kernel program's arrays at its segment boundaries, read as the reference's stages.

  The host operations between the four regions are the reference's own operations — the edge lists with a self-loop
  per node, the degree count, 1/√degree where the degree is positive, the edge weights, the gather of source rows
  scaled by the edge weight and summed into the target rows —, and each region's output array is the matching whole-array
  stage: a matrix product is the reference's contraction, entry by entry the same sum; bias-and-relu is the reference's
  "add the bias row, cut off at zero", entry by entry the same expression. Walking the boundaries in order, every array a
  later segment reads is one of the reference's stage arrays. The last region leaves, in every row, the log-softmax of
  "aggregated features plus bias" with the maximum added back inside the subtracted term.
-/
import proofs.«140220_j49005576848207_1_alg».proof.Proof.Gen.KernelIdeal.Frame
import proofs.«140220_j49005576848207_1_alg».proof.Proof.ReferenceRead
import proofs.«140220_j49005576848207_1_alg».proof.Proof.RegionProduct1
import proofs.«140220_j49005576848207_1_alg».proof.Proof.RegionBiasRelu
import proofs.«140220_j49005576848207_1_alg».proof.Proof.RegionProduct2
import proofs.«140220_j49005576848207_1_alg».proof.Proof.RegionBiasLogSoftmax
import Idealize.ShloMosaic.PureOps.Ideal
import Idealize.ShloMosaic.Lib.Pipeline.Value

set_option maxRecDepth 16384

noncomputable section

namespace Cert.KernelIdeal.Fold

open Cert.KernelIdeal Cert.KernelIdeal.Gen Cert.Lib
open Idealize.ShloMosaic Idealize.ShloMosaic.TcCoe Idealize.ShloMosaic.ValueIdx
open Idealize.SL Idealize.SL.Sem
open Cert.ReferenceIdeal.ReadP

variable (m : (ℓ : Loc nD τ sig) → Buf (Elt Ideal) ℓ) (ρ : Dev nD → PrngReg) (c : Dev nD)

/-- Reads a buffer through a stretch of host operations: one pass over the stretch, then the reads that sit inside
    the pairs a two-operand concatenate is printed with. -/
local macro "read_stretch" : tactic => `(tactic| (after_results_simp; repeat (first | rw [StableHlo.reshape_result] | rw [StableHlo.unary_result] | rw [StableHlo.binary_result] | rw [StableHlo.nullary_result] | rw [StableHlo.ternary_result] | (rw [StableHlo.nullary_result_ne]; rotate_left; decide) | (rw [StableHlo.unary_result_ne]; rotate_left; decide) | (rw [StableHlo.binary_result_ne]; rotate_left; decide) | (rw [StableHlo.reshape_result_ne]; rotate_left; decide) | (rw [StableHlo.ternary_result_ne]; rotate_left; decide))))

/-! ## The first stretch: edge lists with self-loops, the degree count, its comparison with zero and its 1/√ -/

theorem w1_src : W1 m ρ c (Proc.devRef .tc main_v3) = val_main_v3 (m ((c : Thread nD τ).loc main_arg1)) := by
  show StableHlo.after hostOps0 (W0 m ρ c) (Proc.devRef .tc main_v3) = _
  read_stretch
  rfl
theorem w1_dst : W1 m ρ c (Proc.devRef .tc main_v6) = val_main_v6 (m ((c : Thread nD τ).loc main_arg1)) := by
  show StableHlo.after hostOps0 (W0 m ρ c) (Proc.devRef .tc main_v6) = _
  read_stretch
  rfl
theorem w1_positive : W1 m ρ c (Proc.devRef .tc main_v12) = val_main_v12 (m ((c : Thread nD τ).loc main_arg1)) := by
  show StableHlo.after hostOps0 (W0 m ρ c) (Proc.devRef .tc main_v12) = _
  read_stretch
  rfl
theorem w1_rsqrt : W1 m ρ c (Proc.devRef .tc main_v13) = val_main_v13 (m ((c : Thread nD τ).loc main_arg1)) := by
  show StableHlo.after hostOps0 (W0 m ρ c) (Proc.devRef .tc main_v13) = _
  read_stretch
  rfl
theorem w1_zero : W1 m ρ c (Proc.devRef .tc main_cst_2) = val_main_cst_2 (F := Ideal) := by
  show StableHlo.after hostOps0 (W0 m ρ c) (Proc.devRef .tc main_cst_2) = _
  read_stretch
  rfl
theorem w1_arg0 : W1 m ρ c (Proc.devRef .tc main_arg0) = (m ((c : Thread nD τ).loc main_arg0)) := by
  show StableHlo.after hostOps0 (W0 m ρ c) (Proc.devRef .tc main_arg0) = _
  read_stretch
theorem w1_arg2 : W1 m ρ c (Proc.devRef .tc main_arg2) = (m ((c : Thread nD τ).loc main_arg2)) := by
  show StableHlo.after hostOps0 (W0 m ρ c) (Proc.devRef .tc main_arg2) = _
  read_stretch
theorem w1_arg3 : W1 m ρ c (Proc.devRef .tc main_arg3) = (m ((c : Thread nD τ).loc main_arg3)) := by
  show StableHlo.after hostOps0 (W0 m ρ c) (Proc.devRef .tc main_arg3) = _
  read_stretch
theorem w1_arg4 : W1 m ρ c (Proc.devRef .tc main_arg4) = (m ((c : Thread nD τ).loc main_arg4)) := by
  show StableHlo.after hostOps0 (W0 m ρ c) (Proc.devRef .tc main_arg4) = _
  read_stretch
theorem w1_arg5 : W1 m ρ c (Proc.devRef .tc main_arg5) = (m ((c : Thread nD τ).loc main_arg5)) := by
  show StableHlo.after hostOps0 (W0 m ρ c) (Proc.devRef .tc main_arg5) = _
  read_stretch

/-! ## The "where the degree is positive" call, over any contents -/

theorem where_stretch (Wa : Valuation τ sig (Elt Ideal)) :
    StableHlo.after hostOps0_1 Wa (Proc.devRef .tc main_v14)
      = select (s := S50000) (Wa (Proc.devRef .tc main_v12) : S50000.Idx → BitVec 1) (Wa (Proc.devRef .tc main_v13) : S50000.Idx → EReal)
          (broadcastInDim S50000 ![] bcast_S_S50000 (id (Wa (Proc.devRef .tc main_cst_2) : S_.Idx → EReal))) := by
  read_stretch
  rfl
theorem where_keeps_v3 (Wa : Valuation τ sig (Elt Ideal)) : StableHlo.after hostOps0_1 Wa (Proc.devRef .tc main_v3) = Wa (Proc.devRef .tc main_v3) := by read_stretch
theorem where_keeps_v6 (Wa : Valuation τ sig (Elt Ideal)) : StableHlo.after hostOps0_1 Wa (Proc.devRef .tc main_v6) = Wa (Proc.devRef .tc main_v6) := by read_stretch
theorem where_keeps_arg0 (Wa : Valuation τ sig (Elt Ideal)) : StableHlo.after hostOps0_1 Wa (Proc.devRef .tc main_arg0) = Wa (Proc.devRef .tc main_arg0) := by read_stretch
theorem where_keeps_arg2 (Wa : Valuation τ sig (Elt Ideal)) : StableHlo.after hostOps0_1 Wa (Proc.devRef .tc main_arg2) = Wa (Proc.devRef .tc main_arg2) := by read_stretch
theorem where_keeps_arg3 (Wa : Valuation τ sig (Elt Ideal)) : StableHlo.after hostOps0_1 Wa (Proc.devRef .tc main_arg3) = Wa (Proc.devRef .tc main_arg3) := by read_stretch
theorem where_keeps_arg4 (Wa : Valuation τ sig (Elt Ideal)) : StableHlo.after hostOps0_1 Wa (Proc.devRef .tc main_arg4) = Wa (Proc.devRef .tc main_arg4) := by read_stretch
theorem where_keeps_arg5 (Wa : Valuation τ sig (Elt Ideal)) : StableHlo.after hostOps0_1 Wa (Proc.devRef .tc main_arg5) = Wa (Proc.devRef .tc main_arg5) := by read_stretch

theorem w2_invSqrt : W2 m ρ c (Proc.devRef .tc main_v14) = val_main_v14 (m ((c : Thread nD τ).loc main_arg1)) :=
  (where_stretch (W1 m ρ c)).trans (by rw [w1_positive m ρ c, w1_rsqrt m ρ c, w1_zero m ρ c]; rfl)
theorem w2_src : W2 m ρ c (Proc.devRef .tc main_v3) = val_main_v3 (m ((c : Thread nD τ).loc main_arg1)) := (where_keeps_v3 (W1 m ρ c)).trans (w1_src m ρ c)
theorem w2_dst : W2 m ρ c (Proc.devRef .tc main_v6) = val_main_v6 (m ((c : Thread nD τ).loc main_arg1)) := (where_keeps_v6 (W1 m ρ c)).trans (w1_dst m ρ c)
theorem w2_arg0 : W2 m ρ c (Proc.devRef .tc main_arg0) = (m ((c : Thread nD τ).loc main_arg0)) := (where_keeps_arg0 (W1 m ρ c)).trans (w1_arg0 m ρ c)
theorem w2_arg2 : W2 m ρ c (Proc.devRef .tc main_arg2) = (m ((c : Thread nD τ).loc main_arg2)) := (where_keeps_arg2 (W1 m ρ c)).trans (w1_arg2 m ρ c)
theorem w2_arg3 : W2 m ρ c (Proc.devRef .tc main_arg3) = (m ((c : Thread nD τ).loc main_arg3)) := (where_keeps_arg3 (W1 m ρ c)).trans (w1_arg3 m ρ c)
theorem w2_arg4 : W2 m ρ c (Proc.devRef .tc main_arg4) = (m ((c : Thread nD τ).loc main_arg4)) := (where_keeps_arg4 (W1 m ρ c)).trans (w1_arg4 m ρ c)
theorem w2_arg5 : W2 m ρ c (Proc.devRef .tc main_arg5) = (m ((c : Thread nD τ).loc main_arg5)) := (where_keeps_arg5 (W1 m ρ c)).trans (w1_arg5 m ρ c)

/-! ## The edge weights, over any contents that hold the earlier stages -/

theorem weight_stretch (Wa : Valuation τ sig (Elt Ideal)) (x1 : (⟨Cert.ReferenceIdeal.S2x800000, .i32⟩ : BufTy).Contents (Elt Ideal))
    (h14 : Wa (Proc.devRef .tc main_v14) = val_main_v14 x1) (h3 : Wa (Proc.devRef .tc main_v3) = val_main_v3 x1) (h6 : Wa (Proc.devRef .tc main_v6) = val_main_v6 x1) :
    StableHlo.after hostOps0_2 Wa (Proc.devRef .tc main_v29) = val_main_v29 x1 := by
  read_stretch
  rw [h14, h3, h6]
  rfl
theorem weight_keeps_v3 (Wa : Valuation τ sig (Elt Ideal)) : StableHlo.after hostOps0_2 Wa (Proc.devRef .tc main_v3) = Wa (Proc.devRef .tc main_v3) := by read_stretch
theorem weight_keeps_v6 (Wa : Valuation τ sig (Elt Ideal)) : StableHlo.after hostOps0_2 Wa (Proc.devRef .tc main_v6) = Wa (Proc.devRef .tc main_v6) := by read_stretch
theorem weight_keeps_arg0 (Wa : Valuation τ sig (Elt Ideal)) : StableHlo.after hostOps0_2 Wa (Proc.devRef .tc main_arg0) = Wa (Proc.devRef .tc main_arg0) := by read_stretch
theorem weight_keeps_arg2 (Wa : Valuation τ sig (Elt Ideal)) : StableHlo.after hostOps0_2 Wa (Proc.devRef .tc main_arg2) = Wa (Proc.devRef .tc main_arg2) := by read_stretch
theorem weight_keeps_arg3 (Wa : Valuation τ sig (Elt Ideal)) : StableHlo.after hostOps0_2 Wa (Proc.devRef .tc main_arg3) = Wa (Proc.devRef .tc main_arg3) := by read_stretch
theorem weight_keeps_arg4 (Wa : Valuation τ sig (Elt Ideal)) : StableHlo.after hostOps0_2 Wa (Proc.devRef .tc main_arg4) = Wa (Proc.devRef .tc main_arg4) := by read_stretch
theorem weight_keeps_arg5 (Wa : Valuation τ sig (Elt Ideal)) : StableHlo.after hostOps0_2 Wa (Proc.devRef .tc main_arg5) = Wa (Proc.devRef .tc main_arg5) := by read_stretch

theorem entry_weight : W3 m ρ c (Proc.devRef .tc main_v29) = val_main_v29 (m ((c : Thread nD τ).loc main_arg1)) :=
  weight_stretch (W2 m ρ c) _ (w2_invSqrt m ρ c) (w2_src m ρ c) (w2_dst m ρ c)
theorem entry_src : W3 m ρ c (Proc.devRef .tc main_v3) = val_main_v3 (m ((c : Thread nD τ).loc main_arg1)) := (weight_keeps_v3 (W2 m ρ c)).trans (w2_src m ρ c)
theorem entry_dst : W3 m ρ c (Proc.devRef .tc main_v6) = val_main_v6 (m ((c : Thread nD τ).loc main_arg1)) := (weight_keeps_v6 (W2 m ρ c)).trans (w2_dst m ρ c)
theorem entry_arg0 : W3 m ρ c (Proc.devRef .tc main_arg0) = (m ((c : Thread nD τ).loc main_arg0)) := (weight_keeps_arg0 (W2 m ρ c)).trans (w2_arg0 m ρ c)
theorem entry_arg2 : W3 m ρ c (Proc.devRef .tc main_arg2) = (m ((c : Thread nD τ).loc main_arg2)) := (weight_keeps_arg2 (W2 m ρ c)).trans (w2_arg2 m ρ c)
theorem entry_arg3 : W3 m ρ c (Proc.devRef .tc main_arg3) = (m ((c : Thread nD τ).loc main_arg3)) := (weight_keeps_arg3 (W2 m ρ c)).trans (w2_arg3 m ρ c)
theorem entry_arg4 : W3 m ρ c (Proc.devRef .tc main_arg4) = (m ((c : Thread nD τ).loc main_arg4)) := (weight_keeps_arg4 (W2 m ρ c)).trans (w2_arg4 m ρ c)
theorem entry_arg5 : W3 m ρ c (Proc.devRef .tc main_arg5) = (m ((c : Thread nD τ).loc main_arg5)) := (weight_keeps_arg5 (W2 m ρ c)).trans (w2_arg5 m ρ c)

/-! ## The first matrix product -/

theorem product1_eq : W4 m ρ c (Proc.devRef .tc main_v30) = val_main_v30 (m ((c : Thread nD τ).loc main_arg0)) (m ((c : Thread nD τ).loc main_arg2)) := by
  refine (W4_arr m ρ c 2).trans ((Product1.output (V3 m ρ) c).trans ?_)
  have e : Product1.product (V3 m ρ) c = PlainDot.mm (R := 50000) (K := 128) (C := 128) (m ((c : Thread nD τ).loc main_arg0)) (m ((c : Thread nD τ).loc main_arg2)) := by
    unfold Product1.product
    exact congrArg₂ (PlainDot.mm (R := 50000) (K := 128) (C := 128)) (entry_arg0 m ρ c) (entry_arg2 m ρ c)
  rw [e]
  funext i
  rw [val_main_v30_apply]
  unfold PlainDot.mm
  refine Finset.sum_congr rfl fun k _ => ?_
  have hl : PlainDot.rowIdx (R := 50000) (K := 128) (C := 128) i k = lidx_main_v30 i k := funext fun a => by
    match a with
    | ⟨0, _⟩ => rfl
    | ⟨1, _⟩ => rfl
  have hr : PlainDot.colIdx (R := 50000) (K := 128) (C := 128) i k = ridx_main_v30 i k := funext fun a => by
    match a with
    | ⟨0, _⟩ => rfl
    | ⟨1, _⟩ => rfl
  rw [hl, hr]
theorem after1_src : W4 m ρ c (Proc.devRef .tc main_v3) = val_main_v3 (m ((c : Thread nD τ).loc main_arg1)) := (W4_of_ne m ρ c main_v3 (by decide)).trans (entry_src m ρ c)
theorem after1_dst : W4 m ρ c (Proc.devRef .tc main_v6) = val_main_v6 (m ((c : Thread nD τ).loc main_arg1)) := (W4_of_ne m ρ c main_v6 (by decide)).trans (entry_dst m ρ c)
theorem after1_weight : W4 m ρ c (Proc.devRef .tc main_v29) = val_main_v29 (m ((c : Thread nD τ).loc main_arg1)) := (W4_of_ne m ρ c main_v29 (by decide)).trans (entry_weight m ρ c)
theorem after1_arg3 : W4 m ρ c (Proc.devRef .tc main_arg3) = (m ((c : Thread nD τ).loc main_arg3)) := (W4_of_ne m ρ c main_arg3 (by decide)).trans (entry_arg3 m ρ c)
theorem after1_arg4 : W4 m ρ c (Proc.devRef .tc main_arg4) = (m ((c : Thread nD τ).loc main_arg4)) := (W4_of_ne m ρ c main_arg4 (by decide)).trans (entry_arg4 m ρ c)
theorem after1_arg5 : W4 m ρ c (Proc.devRef .tc main_arg5) = (m ((c : Thread nD τ).loc main_arg5)) := (W4_of_ne m ρ c main_arg5 (by decide)).trans (entry_arg5 m ρ c)

/-! ## The first aggregation (gather the source rows, scale by the edge weight, sum into the target rows), and the bias row -/

theorem aggregate1_stretch (Wa : Valuation τ sig (Elt Ideal)) (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal))
    (h30 : Wa (Proc.devRef .tc main_v30) = val_main_v30 x0 x2) (h3 : Wa (Proc.devRef .tc main_v3) = val_main_v3 x1)
    (h6 : Wa (Proc.devRef .tc main_v6) = val_main_v6 x1) (h29 : Wa (Proc.devRef .tc main_v29) = val_main_v29 x1) :
    StableHlo.after hostOps1 Wa (Proc.devRef .tc main_v43) = val_main_v43 x0 x1 x2 := by
  read_stretch
  rw [h30, h3, h6, h29]
  rfl
theorem biasRow1_stretch (Wa : Valuation τ sig (Elt Ideal)) :
    StableHlo.after hostOps1 Wa (Proc.devRef .tc main_v44) = shapeCast S1x128 (Wa (Proc.devRef .tc main_arg3) : S128.Idx → EReal) shapeCasts_S128_S1x128 := by
  read_stretch
  rfl
theorem aggregate1_keeps_v3 (Wa : Valuation τ sig (Elt Ideal)) : StableHlo.after hostOps1 Wa (Proc.devRef .tc main_v3) = Wa (Proc.devRef .tc main_v3) := by read_stretch
theorem aggregate1_keeps_v6 (Wa : Valuation τ sig (Elt Ideal)) : StableHlo.after hostOps1 Wa (Proc.devRef .tc main_v6) = Wa (Proc.devRef .tc main_v6) := by read_stretch
theorem aggregate1_keeps_v29 (Wa : Valuation τ sig (Elt Ideal)) : StableHlo.after hostOps1 Wa (Proc.devRef .tc main_v29) = Wa (Proc.devRef .tc main_v29) := by read_stretch
theorem aggregate1_keeps_arg4 (Wa : Valuation τ sig (Elt Ideal)) : StableHlo.after hostOps1 Wa (Proc.devRef .tc main_arg4) = Wa (Proc.devRef .tc main_arg4) := by read_stretch
theorem aggregate1_keeps_arg5 (Wa : Valuation τ sig (Elt Ideal)) : StableHlo.after hostOps1 Wa (Proc.devRef .tc main_arg5) = Wa (Proc.devRef .tc main_arg5) := by read_stretch

theorem layer1_sum : W5 m ρ c (Proc.devRef .tc main_v43) = val_main_v43 (m ((c : Thread nD τ).loc main_arg0)) (m ((c : Thread nD τ).loc main_arg1)) (m ((c : Thread nD τ).loc main_arg2)) :=
  aggregate1_stretch (W4 m ρ c) _ _ _ (product1_eq m ρ c) (after1_src m ρ c) (after1_dst m ρ c) (after1_weight m ρ c)
theorem layer1_bias : W5 m ρ c (Proc.devRef .tc main_v44) = shapeCast S1x128 ((m ((c : Thread nD τ).loc main_arg3)) : S128.Idx → EReal) shapeCasts_S128_S1x128 :=
  (biasRow1_stretch (W4 m ρ c)).trans (by rw [after1_arg3 m ρ c])
theorem before2_src : W5 m ρ c (Proc.devRef .tc main_v3) = val_main_v3 (m ((c : Thread nD τ).loc main_arg1)) := (aggregate1_keeps_v3 (W4 m ρ c)).trans (after1_src m ρ c)
theorem before2_dst : W5 m ρ c (Proc.devRef .tc main_v6) = val_main_v6 (m ((c : Thread nD τ).loc main_arg1)) := (aggregate1_keeps_v6 (W4 m ρ c)).trans (after1_dst m ρ c)
theorem before2_weight : W5 m ρ c (Proc.devRef .tc main_v29) = val_main_v29 (m ((c : Thread nD τ).loc main_arg1)) := (aggregate1_keeps_v29 (W4 m ρ c)).trans (after1_weight m ρ c)
theorem before2_arg4 : W5 m ρ c (Proc.devRef .tc main_arg4) = (m ((c : Thread nD τ).loc main_arg4)) := (aggregate1_keeps_arg4 (W4 m ρ c)).trans (after1_arg4 m ρ c)
theorem before2_arg5 : W5 m ρ c (Proc.devRef .tc main_arg5) = (m ((c : Thread nD τ).loc main_arg5)) := (aggregate1_keeps_arg5 (W4 m ρ c)).trans (after1_arg5 m ρ c)

/-! ## Bias and relu -/

theorem activation1_eq : W6 m ρ c (Proc.devRef .tc main_v45) = val_main_v47 (m ((c : Thread nD τ).loc main_arg0)) (m ((c : Thread nD τ).loc main_arg1)) (m ((c : Thread nD τ).loc main_arg2)) (m ((c : Thread nD τ).loc main_arg3)) := by
  refine (W6_arr m ρ c 2).trans ((BiasRelu.output (V5 m ρ) c).trans ?_)
  have e : BiasRelu.result (V5 m ρ) c
      = BiasRelu.rectified (n := 50000) (d := 128) (val_main_v43 (m ((c : Thread nD τ).loc main_arg0)) (m ((c : Thread nD τ).loc main_arg1)) (m ((c : Thread nD τ).loc main_arg2))) (shapeCast S1x128 ((m ((c : Thread nD τ).loc main_arg3)) : S128.Idx → EReal) shapeCasts_S128_S1x128) := by
    unfold BiasRelu.result
    exact congrArg₂ (BiasRelu.rectified (n := 50000) (d := 128)) (layer1_sum m ρ c) (layer1_bias m ρ c)
  rw [e]
  funext i
  unfold BiasRelu.rectified
  rw [val_main_v47_apply, val_main_v46_apply, val_main_v45_apply, val_main_v44_apply, val_main_call1_v0_apply, val_main_call1_cst_apply,
    shapeCast_addUnit_apply ![128] ((m ((c : Thread nD τ).loc main_arg3)) : S128.Idx → EReal) shapeCasts_S128_S1x128 (BiasRelu.under i),
    Ideal.maximumf_def, Ideal.addf_def, Ideal.ofBits_def]
  have hb : (fun a : Fin 1 => BiasRelu.under (n := 50000) (d := 128) i a.succ) = idx_main_v44 (idx_main_v45 i) := funext fun a => Fin.ext (by
    match a with
    | ⟨0, _⟩ => rfl)
  rw [hb]
theorem after2_src : W6 m ρ c (Proc.devRef .tc main_v3) = val_main_v3 (m ((c : Thread nD τ).loc main_arg1)) := (W6_of_ne m ρ c main_v3 (by decide)).trans (before2_src m ρ c)
theorem after2_dst : W6 m ρ c (Proc.devRef .tc main_v6) = val_main_v6 (m ((c : Thread nD τ).loc main_arg1)) := (W6_of_ne m ρ c main_v6 (by decide)).trans (before2_dst m ρ c)
theorem after2_weight : W6 m ρ c (Proc.devRef .tc main_v29) = val_main_v29 (m ((c : Thread nD τ).loc main_arg1)) := (W6_of_ne m ρ c main_v29 (by decide)).trans (before2_weight m ρ c)
theorem after2_arg4 : W6 m ρ c (Proc.devRef .tc main_arg4) = (m ((c : Thread nD τ).loc main_arg4)) := (W6_of_ne m ρ c main_arg4 (by decide)).trans (before2_arg4 m ρ c)
theorem after2_arg5 : W6 m ρ c (Proc.devRef .tc main_arg5) = (m ((c : Thread nD τ).loc main_arg5)) := (W6_of_ne m ρ c main_arg5 (by decide)).trans (before2_arg5 m ρ c)

/-! ## The second matrix product -/

theorem product2_eq : W7 m ρ c (Proc.devRef .tc main_v46) = val_main_v71 (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Product2.output (V6 m ρ) c).trans ?_)
  have e : Product2.product (V6 m ρ) c
      = PlainDot.mm (R := 50000) (K := 128) (C := 64) (val_main_v47 (m ((c : Thread nD τ).loc main_arg0)) (m ((c : Thread nD τ).loc main_arg1)) (m ((c : Thread nD τ).loc main_arg2)) (m ((c : Thread nD τ).loc main_arg3))) (m ((c : Thread nD τ).loc main_arg4)) := by
    unfold Product2.product
    exact congrArg₂ (PlainDot.mm (R := 50000) (K := 128) (C := 64)) (activation1_eq m ρ c) (after2_arg4 m ρ c)
  rw [e]
  funext i
  rw [val_main_v71_apply]
  unfold PlainDot.mm
  refine Finset.sum_congr rfl fun k _ => ?_
  have hl : PlainDot.rowIdx (R := 50000) (K := 128) (C := 64) i k = lidx_main_v71 i k := funext fun a => by
    match a with
    | ⟨0, _⟩ => rfl
    | ⟨1, _⟩ => rfl
  have hr : PlainDot.colIdx (R := 50000) (K := 128) (C := 64) i k = ridx_main_v71 i k := funext fun a => by
    match a with
    | ⟨0, _⟩ => rfl
    | ⟨1, _⟩ => rfl
  rw [hl, hr]
theorem after3_src : W7 m ρ c (Proc.devRef .tc main_v3) = val_main_v3 (m ((c : Thread nD τ).loc main_arg1)) := (W7_of_ne m ρ c main_v3 (by decide)).trans (after2_src m ρ c)
theorem after3_dst : W7 m ρ c (Proc.devRef .tc main_v6) = val_main_v6 (m ((c : Thread nD τ).loc main_arg1)) := (W7_of_ne m ρ c main_v6 (by decide)).trans (after2_dst m ρ c)
theorem after3_weight : W7 m ρ c (Proc.devRef .tc main_v29) = val_main_v29 (m ((c : Thread nD τ).loc main_arg1)) := (W7_of_ne m ρ c main_v29 (by decide)).trans (after2_weight m ρ c)
theorem after3_arg5 : W7 m ρ c (Proc.devRef .tc main_arg5) = (m ((c : Thread nD τ).loc main_arg5)) := (W7_of_ne m ρ c main_arg5 (by decide)).trans (after2_arg5 m ρ c)

/-! ## The second aggregation and its bias row. The reference computes the edge weights a second time, by the same
    operations of the same edge lists: the same array. -/

theorem weight_again (x1 : (⟨Cert.ReferenceIdeal.S2x800000, .i32⟩ : BufTy).Contents (Elt Ideal)) : val_main_v70 (F := Ideal) x1 = val_main_v29 (F := Ideal) x1 := rfl

theorem aggregate2_stretch (Wa : Valuation τ sig (Elt Ideal)) (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal))
    (x3 : (⟨Cert.ReferenceIdeal.S128, .f32⟩ : BufTy).Contents (Elt Ideal)) (x4 : (⟨Cert.ReferenceIdeal.S128x64, .f32⟩ : BufTy).Contents (Elt Ideal))
    (h46 : Wa (Proc.devRef .tc main_v46) = val_main_v71 x0 x1 x2 x3 x4) (h3 : Wa (Proc.devRef .tc main_v3) = val_main_v3 x1)
    (h6 : Wa (Proc.devRef .tc main_v6) = val_main_v6 x1) (h29 : Wa (Proc.devRef .tc main_v29) = val_main_v70 x1) :
    StableHlo.after hostOps3 Wa (Proc.devRef .tc main_v59) = val_main_v84 x0 x1 x2 x3 x4 := by
  read_stretch
  rw [h46, h3, h6, h29]
  rfl
theorem biasRow2_stretch (Wa : Valuation τ sig (Elt Ideal)) :
    StableHlo.after hostOps3 Wa (Proc.devRef .tc main_v60) = shapeCast S1x64 (Wa (Proc.devRef .tc main_arg5) : S64.Idx → EReal) shapeCasts_S64_S1x64 := by
  read_stretch
  rfl

theorem layer2_sum : W8 m ρ c (Proc.devRef .tc main_v59) = val_main_v84 (m ((c : Thread nD τ).loc main_arg0)) (m ((c : Thread nD τ).loc main_arg1)) (m ((c : Thread nD τ).loc main_arg2)) (m ((c : Thread nD τ).loc main_arg3)) (m ((c : Thread nD τ).loc main_arg4)) :=
  aggregate2_stretch (W7 m ρ c) _ _ _ _ _ (product2_eq m ρ c) (after3_src m ρ c) (after3_dst m ρ c)
    ((after3_weight m ρ c).trans (weight_again _).symm)
theorem layer2_bias : W8 m ρ c (Proc.devRef .tc main_v60) = shapeCast S1x64 ((m ((c : Thread nD τ).loc main_arg5)) : S64.Idx → EReal) shapeCasts_S64_S1x64 :=
  (biasRow2_stretch (W7 m ρ c)).trans (by rw [after3_arg5 m ρ c])

/-! ## The last region: what the result array ends holding -/

theorem result_eq : W9 m ρ c (Proc.devRef .tc main_v61)
    = BiasLogSoftmax.rowsLogSoftmax (n := 50000) (d := 64) (val_main_v84 (m ((c : Thread nD τ).loc main_arg0)) (m ((c : Thread nD τ).loc main_arg1)) (m ((c : Thread nD τ).loc main_arg2)) (m ((c : Thread nD τ).loc main_arg3)) (m ((c : Thread nD τ).loc main_arg4)))
        (shapeCast S1x64 ((m ((c : Thread nD τ).loc main_arg5)) : S64.Idx → EReal) shapeCasts_S64_S1x64) := by
  refine (W9_arr m ρ c 2).trans ((BiasLogSoftmax.output (V8 m ρ) c).trans ?_)
  unfold BiasLogSoftmax.result
  exact congrArg₂ (BiasLogSoftmax.rowsLogSoftmax (n := 50000) (d := 64)) (layer2_sum m ρ c) (layer2_bias m ρ c)

end Cert.KernelIdeal.Fold

end
-- ==== Proof.LibRealScalars.lean ====
/-
  Scalar facts on the extended reals at real arguments.

  What a few float words denote (1.0, -0.5, +inf); the reciprocal square root and the power -1/2 of a positive real,
  which are the same number 1/√x; a comparison's one-bit answer read back as the inequality it tested; and the two
  readings a finiteness-and-sign precondition needs entry by entry: an extended real whose absolute value max x (-x)
  tests below +∞ is a real number, and one that tests at least the zero word is nonnegative.
-/
import Idealize.ShloMosaic.PureOps.Ideal
import Idealize.ShloMosaic.PureOps.Ideal.Laws
import proofs.«140220_j49005576848207_1_alg».proof.Proof.LibRealSums

noncomputable section

namespace Cert.Lib.RealScalars

open Idealize.ShloMosaic Cert.Lib

/-- The word of 1.0 denotes the real 1. -/
theorem ofBits_one : Ideal.ofBits .f32 0x3F800000#32 = ((1 : ℝ) : EReal) := by
  simp [Ideal.ofBits, Ideal.ieee, -EReal.coe_mul]; norm_num

/-- The word of -0.5 denotes the real -1/2. -/
theorem ofBits_neg_half : Ideal.ofBits .f32 0xBF000000#32 = ((-(1 / 2) : ℝ) : EReal) := by
  simp [Ideal.ofBits, Ideal.ieee, -EReal.coe_mul]; norm_num

/-- The word of +inf denotes +∞. -/
theorem ofBits_inf : Ideal.ofBits .f32 0x7F800000#32 = ⊤ := by
  simp [Ideal.ofBits, Ideal.ieee]

/-- The reciprocal square root of a positive real. -/
theorem rsqrt_pos (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- A positive real to the power -1/2 is the reciprocal of its square root. -/
theorem pow_neg_half (x : ℝ) (hx : 0 < x) :
    Ideal.pow (x : EReal) ((-(1 / 2) : ℝ) : EReal) = (((Real.sqrt x)⁻¹ : ℝ) : EReal) := by
  show ((Real.rpow x (-(1 / 2)) : ℝ) : EReal) = _
  congr 1
  show x ^ (-(1 / 2) : ℝ) = _
  rw [Real.rpow_neg hx.le, Real.sqrt_eq_rpow]

/-- A positive real is greater than zero, as the one-bit answer of the comparison. -/
theorem cmp_ogt_pos (x : ℝ) (hx : 0 < x) : Ideal.cmp .ogt (x : EReal) 0 = 1#1 := by
  show BitVec.ofBool (decide ((0 : EReal) < (x : EReal))) = 1#1
  rw [decide_eq_true (by exact_mod_cast hx)]
  rfl

/-- A one-bit answer that is 1 came from a true test. -/
theorem of_ofBool_eq_one {b : Bool} (h : BitVec.ofBool b = 1#1) : b = true := by
  cases b
  · exact absurd h (by decide)
  · rfl

/-- An entry whose absolute value tests below +∞ is a real number. -/
theorem real_of_abs_lt (x : EReal) (h : Ideal.cmp .olt (max x (-x)) (Ideal.ofBits .f32 0x7F800000#32) = 1#1) :
    ∃ r : ℝ, x = (r : EReal) := by
  have h1 : decide (max x (-x) < Ideal.ofBits .f32 0x7F800000#32) = true := of_ofBool_eq_one h
  rw [ofBits_inf] at h1
  exact RealSums.exists_real_of_max_neg_lt_top (of_decide_eq_true h1)

/-- An entry that tests at least zero is nonnegative. -/
theorem nonneg_of_ge (x : EReal) (h : Ideal.cmp .oge x (Ideal.ofBits .f32 0x00000000#32) = 1#1) : 0 ≤ x := by
  have h1 : decide (Ideal.ofBits .f32 0x00000000#32 ≤ x) = true := of_ofBool_eq_one h
  rw [Ideal.ofBits_zero_f32] at h1
  exact of_decide_eq_true h1

end Cert.Lib.RealScalars

end
-- ==== Proof.LibRealArrays.lean ====
/-
  Arrays of extended reals whose every entry is a real number, and the operations that keep them so.

  At the ideal values an array entry ranges over the extended reals. A sum, a product, a maximum of real numbers is
  real; an entry gathered or stretched out of an array is one of that array's entries; a scatter-add leaves at each
  entry the operand's entry plus a finite sum of updates; a contraction is a finite sum of products. So each of these
  operations takes arrays of real entries to an array of real entries. The one guarded step is the reciprocal square
  root: 1/√d is real only for d > 0, and "d > 0 ? 1/√d : z" is real whenever d and z are.
-/
import Idealize.ShloMosaic.PureOps.Ideal
import Idealize.ShloMosaic.PureOps.Ideal.Laws
import Idealize.ShloMosaic.Lib.ValueIdx
import proofs.«140220_j49005576848207_1_alg».proof.Proof.LibRealSums
import proofs.«140220_j49005576848207_1_alg».proof.Proof.LibRealScalars

noncomputable section

namespace Cert.Lib.RealArrays

open Idealize.ShloMosaic Idealize.ShloMosaic.ValueIdx Cert.Lib

/-- Every entry of the array is a real number. -/
def AllReal {s : Shape} (v : s.Idx → EReal) : Prop := ∀ i, ∃ r : ℝ, v i = r

variable {s t : Shape}

/-- An array filled with the word of 0.0. -/
theorem constant_zero (s : Shape) : AllReal (constant (F := Ideal) s .f32 0x00000000#32) :=
  fun i => ⟨0, by rw [constant_apply, Ideal.ofBits_zero_f32]; rfl⟩

/-- An array filled with the word of 1.0. -/
theorem constant_one (s : Shape) : AllReal (constant (F := Ideal) s .f32 0x3F800000#32) :=
  fun i => ⟨1, by rw [constant_apply, RealScalars.ofBits_one]⟩

/-- Every entry of a stretched array is an entry of the array. -/
theorem broadcastInDim_real (dims : Fin s.rank → Fin t.rank) (h : s.BroadcastsInDim t dims) (x : s.Idx → EReal)
    (hx : AllReal x) : AllReal (broadcastInDim t dims h x) := fun j => by
  unfold broadcastInDim; exact hx _

/-- Every gathered entry is an entry of the operand. -/
theorem gather_real {si : Shape} {w : Nat} (d : GatherDims s si t) (x : s.Idx → EReal) (idx : IVec si w)
    (hx : AllReal x) : AllReal (Host.gather d x idx) := fun j => hx _

/-- A scatter-add of real updates into a real operand. -/
theorem scatterAdd_real {si u : Shape} {w : Nat} {φ : FTy} (d : ScatterDims s si u) (x : FVec Ideal s φ) (idx : IVec si w)
    (upd : FVec Ideal u φ) (hx : AllReal x) (hu : AllReal upd) : AllReal (Host.scatterAdd d x idx upd) := by
  intro i
  show ∃ r : ℝ, x i + ∑ j ∈ Finset.univ.filter (fun j => d.resultIdx? j idx = some i), upd j = r
  choose u' hu' using hu
  obtain ⟨a, ha⟩ := hx i
  refine ⟨a + ∑ j ∈ Finset.univ.filter (fun j => d.resultIdx? j idx = some i), u' j, ?_⟩
  rw [ha, EReal.coe_add, RealSums.coe_sum]
  exact congrArg _ (Finset.sum_congr rfl fun j _ => hu' j)

/-- A contraction of real operands. -/
theorem dotGeneral_real {sl sr : Shape} {φ₁ φ₂ : FTy} (d : DotDims sl sr t) (prec : Option ContractPrecision)
    (x : FVec Ideal sl φ₁) (w : FVec Ideal sr φ₂) (hx : AllReal x) (hw : AllReal w) :
    AllReal (Host.dotGeneral d prec x w) := by
  intro j
  simp only [Host.dotGeneral]
  rw [Ideal.dotGeneral_apply]
  exact RealSums.sum_mul_real _ _ _ (fun q => hx _) (fun q => hw _)

/-- Pointwise product, sum and maximum. -/
theorem mulf_real {φ : FTy} (a b : FVec Ideal s φ) (ha : AllReal a) (hb : AllReal b) : AllReal (mulf a b) := fun i => by
  obtain ⟨x, hx⟩ := ha i; obtain ⟨y, hy⟩ := hb i
  exact ⟨x * y, by show a i * b i = _; rw [hx, hy, EReal.coe_mul]⟩
theorem addf_real {φ : FTy} (a b : FVec Ideal s φ) (ha : AllReal a) (hb : AllReal b) : AllReal (addf a b) := fun i =>
  RealSums.add_real (ha i) (hb i)
theorem maximumf_real {φ : FTy} (a b : FVec Ideal s φ) (ha : AllReal a) (hb : AllReal b) : AllReal (maximumf a b) := fun i => by
  obtain ⟨x, hx⟩ := ha i; obtain ⟨y, hy⟩ := hb i
  exact ⟨max x y, by show max (a i) (b i) = _; rw [hx, hy]; exact (EReal.coe_strictMono.monotone.map_max).symm⟩

/-- A choice between two real arrays. -/
theorem select_real (c : IVec s 1) (a b : s.Idx → EReal) (ha : AllReal a) (hb : AllReal b) : AllReal (select c a b) := fun i => by
  show ∃ r : ℝ, (if c i = 1 then a i else b i) = r
  split
  · exact ha i
  · exact hb i

/-- "d > 0 ? 1/√d : z" for real d and z, the comparison against an array of zeros. -/
theorem guardedRsqrt_real (d zero z : FVec Ideal s .f32) (hd : AllReal d) (h0 : ∀ i, zero i = 0) (hz : AllReal z) :
    AllReal (select (cmpf .ogt d zero) (Host.rsqrt d) z) := fun i => by
  show ∃ r : ℝ, (if Ideal.cmp .ogt (d i) (zero i) = 1 then Ideal.rsqrt (d i) else z i) = r
  obtain ⟨x, hx⟩ := hd i
  split
  · rename_i hc
    rw [h0 i, hx] at hc
    have hpos : (0 : EReal) < (x : EReal) := of_decide_eq_true (RealScalars.of_ofBool_eq_one hc)
    rw [hx, RealScalars.rsqrt_pos x (by exact_mod_cast hpos)]
    exact ⟨_, rfl⟩
  · exact hz i

end Cert.Lib.RealArrays

end
-- ==== Proof.StagesReal.lean ====
/-
  Every stage of the reference network holds real numbers when the float arguments do.

  The degree of a node is a finite sum of ones; 1/√degree is taken only where the degree is positive, and zero stands
  elsewhere; an edge weight is a product of two such numbers; a layer is a contraction of real rows with a real weight
  matrix, gathered along the edges, scaled by the real edge weights, summed into the target rows, shifted by a real bias
  and (in the first layer) cut off at zero. Stage by stage, in the program's order, nothing but real numbers is produced:
  in particular the array the final log-softmax is taken of.
-/
import proofs.«140220_j49005576848207_1_alg».proof.Proof.ReferenceRead
import proofs.«140220_j49005576848207_1_alg».proof.Proof.LibRealArrays

noncomputable section

namespace Cert.ReferenceIdeal.StagesReal

open Cert.ReferenceIdeal Cert.ReferenceIdeal.ReadP Cert.Lib Cert.Lib.RealArrays
open Idealize.ShloMosaic Idealize.ShloMosaic.ValueIdx

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))

/-- A stretched scalar zero is an array of real numbers, each of them 0. -/
theorem zeros_real {t : Shape} (h : S_.BroadcastsInDim t (![] : Fin 0 → Fin t.rank)) :
    AllReal (broadcastInDim t ![] h (constant (F := Ideal) S_ .f32 0x00000000#32)) :=
  broadcastInDim_real _ _ _ (constant_zero S_)
theorem zeros_apply {t : Shape} (h : S_.BroadcastsInDim t (![] : Fin 0 → Fin t.rank)) (i : t.Idx) :
    broadcastInDim t ![] h (constant (F := Ideal) S_ .f32 0x00000000#32) i = 0 := by
  unfold broadcastInDim; rw [constant_apply, Ideal.ofBits_zero_f32]
theorem ones_real {t : Shape} (h : S_.BroadcastsInDim t (![] : Fin 0 → Fin t.rank)) :
    AllReal (broadcastInDim t ![] h (constant (F := Ideal) S_ .f32 0x3F800000#32)) :=
  broadcastInDim_real _ _ _ (constant_one S_)

/-! ## Degrees, their guarded reciprocal square roots, the edge weights (computed once per layer) -/

theorem degree1 : AllReal (val_main_v10 (F := Ideal) x1) := by
  unfold val_main_v10 val_main_v8 val_main_cst_0 val_main_v7 val_main_cst
  exact scatterAdd_real _ _ _ _ (zeros_real _) (ones_real _)
theorem invSqrtDegree1 : AllReal (val_main_v14 (F := Ideal) x1) := by
  unfold val_main_v14 val_main_v12 val_main_v13 val_main_v11 val_main_cst_1 val_main_call0_v1 val_main_call0_v0 val_main_cst_2
  exact guardedRsqrt_real _ _ _ (degree1 x1) (zeros_apply _) (zeros_real _)
theorem weight1 : AllReal (val_main_v29 (F := Ideal) x1) := by
  unfold val_main_v29 val_main_v21 val_main_v28
  exact mulf_real _ _ (gather_real _ _ _ (invSqrtDegree1 x1)) (gather_real _ _ _ (invSqrtDegree1 x1))
theorem degree2 : AllReal (val_main_v51 (F := Ideal) x1) := by
  unfold val_main_v51 val_main_v49 val_main_cst_10 val_main_v48 val_main_cst_9
  exact scatterAdd_real _ _ _ _ (zeros_real _) (ones_real _)
theorem invSqrtDegree2 : AllReal (val_main_v55 (F := Ideal) x1) := by
  unfold val_main_v55 val_main_v53 val_main_v54 val_main_v52 val_main_cst_11 val_main_call2_v1 val_main_call2_v0 val_main_cst_12
  exact guardedRsqrt_real _ _ _ (degree2 x1) (zeros_apply _) (zeros_real _)
theorem weight2 : AllReal (val_main_v70 (F := Ideal) x1) := by
  unfold val_main_v70 val_main_v62 val_main_v69
  exact mulf_real _ _ (gather_real _ _ _ (invSqrtDegree2 x1)) (gather_real _ _ _ (invSqrtDegree2 x1))

/-! ## The first layer -/

variable (h0 : AllReal x0) (h2 : AllReal x2) (h3 : AllReal x3) (h4 : AllReal x4) (h5 : AllReal x5)
include h0 h2 in
theorem product1 : AllReal (val_main_v30 (F := Ideal) x0 x2) := by
  unfold val_main_v30
  exact dotGeneral_real _ _ _ _ h0 h2
include h0 h2 in
theorem aggregated1 : AllReal (val_main_v43 (F := Ideal) x0 x1 x2) := by
  unfold val_main_v43 val_main_v41 val_main_cst_8 val_main_v40 val_main_v37 val_main_v39 val_main_v38
  exact scatterAdd_real _ _ _ _ (zeros_real _)
    (mulf_real _ _ (gather_real _ _ _ (product1 x0 x2 h0 h2))
      (broadcastInDim_real _ _ _ (broadcastInDim_real _ _ _ (weight1 x1))))
include h0 h2 h3 in
theorem activated1 : AllReal (val_main_v47 (F := Ideal) x0 x1 x2 x3) := by
  unfold val_main_v47 val_main_v46 val_main_v45 val_main_v44 val_main_call1_v0 val_main_call1_cst
  exact maximumf_real _ _
    (addf_real _ _ (aggregated1 x0 x1 x2 h0 h2) (broadcastInDim_real _ _ _ (broadcastInDim_real _ _ _ h3)))
    (zeros_real _)

/-! ## The second layer, up to the array the log-softmax is taken of -/

include h0 h2 h3 h4 in
theorem product2 : AllReal (val_main_v71 (F := Ideal) x0 x1 x2 x3 x4) := by
  unfold val_main_v71
  exact dotGeneral_real _ _ _ _ (activated1 x0 x1 x2 x3 h0 h2 h3) h4
include h0 h2 h3 h4 in
theorem aggregated2 : AllReal (val_main_v84 (F := Ideal) x0 x1 x2 x3 x4) := by
  unfold val_main_v84 val_main_v82 val_main_cst_19 val_main_v81 val_main_v78 val_main_v80 val_main_v79
  exact scatterAdd_real _ _ _ _ (zeros_real _)
    (mulf_real _ _ (gather_real _ _ _ (product2 x0 x1 x2 x3 x4 h0 h2 h3 h4))
      (broadcastInDim_real _ _ _ (broadcastInDim_real _ _ _ (weight2 x1))))
include h0 h2 h3 h4 h5 in
theorem logits : AllReal (val_main_v87 (F := Ideal) x0 x1 x2 x3 x4 x5) := by
  unfold val_main_v87 val_main_v86 val_main_v85
  exact addf_real _ _ (aggregated2 x0 x1 x2 x3 x4 h0 h2 h3 h4) (broadcastInDim_real _ _ _ (broadcastInDim_real _ _ _ h5))

end Cert.ReferenceIdeal.StagesReal

end
-- ==== Proof.LastStage.lean ====
/-
  The reference's last stage, and where the two programs meet.

  The reference takes, of every row L of "aggregated features plus bias", the row's largest entry M (a maximum over the
  row, from −∞), then (L s − M) − log (Σ k, exp (L k − M)). Read at entry (p, q) that is the log-softmax of row p in the
  "maximum subtracted first" spelling. The kernel leaves the "maximum added back" spelling of the same rows. The rows are
  rows of real numbers when the float arguments are real, and on a row of real numbers the two spellings are one number.
-/
import proofs.«140220_j49005576848207_1_alg».proof.Proof.ReferenceRead
import proofs.«140220_j49005576848207_1_alg».proof.Proof.StagesReal
import proofs.«140220_j49005576848207_1_alg».proof.Proof.LibLogSoftmaxRow
import proofs.«140220_j49005576848207_1_alg».proof.Proof.RegionBiasLogSoftmax
import Idealize.ShloMosaic.Lib.Pipeline.Value

noncomputable section

namespace Cert.ReferenceIdeal.LastStage

open Cert.ReferenceIdeal Cert.ReferenceIdeal.Gen Cert.ReferenceIdeal.ReadP Cert.Lib Cert.Lib.RealArrays
open Idealize.ShloMosaic Idealize.ShloMosaic.ValueIdx
open Cert.KernelIdeal.BiasLogSoftmax (under biased rowsLogSoftmax)

variable (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))

-- the two big stages are used here only through their stated lemmas: nothing in this module is to open them
attribute [local irreducible] val_main_v87 val_main_v84

/-- The row maximum the reference subtracts, at row p: the largest entry of that row. -/
theorem rowMax_eq (p : Fin 50000) :
    val_main_call3_v2 (F := Ideal) x0 x1 x2 x3 x4 x5 (ix1 p) = LogSoftmaxRow.rowMax (fun k : Fin 64 => val_main_v87 (F := Ideal) x0 x1 x2 x3 x4 x5 (ix2 p k)) := by
  have hred : val_main_call3_v0 (F := Ideal) x0 x1 x2 x3 x4 x5 (ix1 p)
      = LogSoftmaxRow.rowMax (fun k : Fin 64 => val_main_v87 (F := Ideal) x0 x1 x2 x3 x4 x5 (ix2 p k)) := by
    unfold val_main_call3_v0 val_main_call3_cst
    exact LogSoftmaxRow.hostRowMax_apply (val_main_v87 (F := Ideal) x0 x1 x2 x3 x4 x5) reducesTo_S50000x64_S50000_d1 (by decide) h_S_ p
  rw [val_main_call3_v2_apply, val_main_call3_v1_apply, val_main_call3_cst_0_apply, hred, Ideal.maximumf_def, Ideal.ofBits_def,
    LogSoftmaxRow.ofBits_neg_inf, max_eq_right bot_le]

/-- The reference's result at entry (p, q): the log-softmax of row p, the maximum subtracted first. -/
theorem at_entry (p : Fin 50000) (q : Fin 64) :
    val_main_v88 (F := Ideal) x0 x1 x2 x3 x4 x5 (ix2 p q)
      = LogSoftmaxRow.logOfShifted (fun k : Fin 64 => val_main_v87 (F := Ideal) x0 x1 x2 x3 x4 x5 (ix2 p k)) q := by
  have hM : ∀ k : Fin 64, val_main_call3_v4 (F := Ideal) x0 x1 x2 x3 x4 x5 (ix2 p k)
      = LogSoftmaxRow.rowMax (fun k : Fin 64 => val_main_v87 (F := Ideal) x0 x1 x2 x3 x4 x5 (ix2 p k)) := fun k => by
    rw [val_main_call3_v4_apply, val_main_call3_v3_apply]
    exact (congrArg (val_main_call3_v2 (F := Ideal) x0 x1 x2 x3 x4 x5) (funext fun a => Fin.ext (by
      match a with
      | ⟨0, _⟩ => rfl))).trans (rowMax_eq x0 x1 x2 x3 x4 x5 p)
  have h5 : ∀ k : Fin 64, val_main_call3_v5 (F := Ideal) x0 x1 x2 x3 x4 x5 (ix2 p k)
      = val_main_v87 (F := Ideal) x0 x1 x2 x3 x4 x5 (ix2 p k) - LogSoftmaxRow.rowMax (fun k : Fin 64 => val_main_v87 (F := Ideal) x0 x1 x2 x3 x4 x5 (ix2 p k)) := fun k => by
    rw [val_main_call3_v5_apply, hM k, Ideal.subf_def]
  have h7 : val_main_call3_v7 (F := Ideal) x0 x1 x2 x3 x4 x5 (idx_main_call3_v8 (idx_main_call3_v10 (ix2 p q)))
      = ∑ k : Fin 64, Ideal.exp (val_main_v87 (F := Ideal) x0 x1 x2 x3 x4 x5 (ix2 p k) - LogSoftmaxRow.rowMax (fun k : Fin 64 => val_main_v87 (F := Ideal) x0 x1 x2 x3 x4 x5 (ix2 p k))) := by
    rw [val_main_call3_v7_apply, val_main_call3_cst_1_apply]
    show Ideal.ofBits .f32 0x00000000#32 + _ = _
    rw [Ideal.ofBits_zero_f32, zero_add]
    refine Finset.sum_congr rfl fun k _ => ?_
    rw [val_main_call3_v6_apply]
    have e : idx_main_call3_v7 (idx_main_call3_v8 (idx_main_call3_v10 (ix2 p q))) k = ix2 p k := funext fun a => Fin.ext (by
      match a with
      | ⟨0, _⟩ => rfl
      | ⟨1, _⟩ => rfl)
    rw [e, h5 k, Ideal.hostUnary_exp_def]
  rw [val_main_v88_apply, h5 q, val_main_call3_v10_apply, val_main_call3_v9_apply, val_main_call3_v8_apply, h7,
    Ideal.hostUnary_log_def, Ideal.subf_def]
  rfl

/-- "Aggregated features plus the bias row" is the stage the reference takes the log-softmax of. -/
theorem biased_eq (h : (⟨1, ![64]⟩ : Shape).ShapeCasts ⟨2, ![1, 64]⟩) :
    biased (n := 50000) (d := 64) (val_main_v84 (F := Ideal) x0 x1 x2 x3 x4) (shapeCast ⟨2, ![1, 64]⟩ x5 h)
      = val_main_v87 (F := Ideal) x0 x1 x2 x3 x4 x5 := by
  funext i
  unfold biased
  rw [val_main_v87_apply, val_main_v86_apply, val_main_v85_apply, shapeCast_addUnit_apply ![64] x5 h (under i)]
  refine congrArg (fun z => val_main_v84 (F := Ideal) x0 x1 x2 x3 x4 i + x5 z) (funext fun a => Fin.ext (by
    match a with
    | ⟨0, _⟩ => rfl))

/-- With real arguments, the kernel's spelling over the reference's stages IS the reference's last stage. -/
theorem rows_eq (h : (⟨1, ![64]⟩ : Shape).ShapeCasts ⟨2, ![1, 64]⟩)
    (h0 : AllReal x0) (h2 : AllReal x2) (h3 : AllReal x3) (h4 : AllReal x4) (h5 : AllReal x5) :
    rowsLogSoftmax (n := 50000) (d := 64) (val_main_v84 (F := Ideal) x0 x1 x2 x3 x4) (shapeCast ⟨2, ![1, 64]⟩ x5 h)
      = val_main_v88 (F := Ideal) x0 x1 x2 x3 x4 x5 := by
  funext i
  obtain ⟨p, q, rfl⟩ : ∃ (p : Fin 50000) (q : Fin 64), i = ix2 p q := ⟨i 0, i 1, eq_ix2 i⟩
  unfold rowsLogSoftmax
  rw [biased_eq x0 x1 x2 x3 x4 x5 h, at_entry]
  exact LogSoftmaxRow.spellings_agree (by decide) _ (fun k => StagesReal.logits x0 x1 x2 x3 x4 x5 h0 h2 h3 h4 h5 _) q

end Cert.ReferenceIdeal.LastStage

end
-- ==== Proof.ReferenceStretches.lean ====
/-
  The reference program's result, read through its operations in ten stretches.

  The program is one line of 131 host operations. Cut before and after each of its four calls (the two "where the degree
  is positive", the relu, the log-softmax) it is ten stretches; each stretch's results are read over ANY contents of the
  buffers it reads, and then the contents are named stage by stage: the edge lists, the degree and its guarded 1/√, the
  edge weights, the first layer, its relu, the same weights again, the second layer, the log-softmax. The result buffer
  ends holding the reference's last stage of the argument arrays.
-/
import proofs.«140220_j49005576848207_1_alg».proof.Proof.ReferenceRead
import Idealize.ShloMosaic.Lib.Pipeline.Frame
import Idealize.ShloMosaic.PureOps.Ideal

set_option maxRecDepth 16384

noncomputable section

namespace Cert.ReferenceIdeal.Stretches

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The ten stretches -/

abbrev c1 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32) ]

abbrev c2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

abbrev c3 : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

abbrev c4 : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

abbrev c5 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

abbrev c6 : List (HloOp τ sig (Elt F)) :=
  [ nullary main_cst_9 (constant S_ .f32 0x3F800000#32),
    unary main_cst_9 main_v48 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v49 (broadcastInDim S50000 ![] bcast_S_S50000 : (⟨S_, .f32⟩ : BufTy).Contents (Elt F) → (⟨S50000, .f32⟩ : BufTy).Contents (Elt F)),
    unary main_v6 main_v50 (broadcastInDim S850000x1 ![0] bcast_S850000_S850000x1_0 : (⟨S850000, .i32⟩ : BufTy).Contents (Elt F) → (⟨S850000x1, .i32⟩ : BufTy).Contents (Elt F)),
    ternary main_v49 main_v50 main_v48 main_v51 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v52 (broadcastInDim S50000 ![] bcast_S_S50000 : (⟨S_, .f32⟩ : BufTy).Contents (Elt F) → (⟨S50000, .f32⟩ : BufTy).Contents (Elt F)),
    binary main_v51 main_v52 main_v53 (cmpf .ogt : (⟨S50000, .f32⟩ : BufTy).Contents (Elt F) → (⟨S50000, .f32⟩ : BufTy).Contents (Elt F) → (⟨S50000, .i1⟩ : BufTy).Contents (Elt F)),
    unary main_v51 main_v54 (Host.rsqrt : (⟨S50000, .f32⟩ : BufTy).Contents (Elt F) → (⟨S50000, .f32⟩ : BufTy).Contents (Elt F)),
    nullary main_cst_12 (constant S_ .f32 0x00000000#32) ]

abbrev c7 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v53) (TRef.of (T := ⟨S50000, .f32⟩) main_v54) (TRef.of (T := ⟨S50000, .f32⟩) main_call2_v1) (TRef.of (T := ⟨S50000, .f32⟩) main_v55) select ]

abbrev c8 : List (HloOp τ sig (Elt F)) :=
  [ nullary main_c_13 (constantI S_ 32 0#32),
    unary main_c_13 main_v56 (broadcastInDim S850000 ![] bcast_S_S850000 : (⟨S_, .i32⟩ : BufTy).Contents (Elt F) → (⟨S850000, .i32⟩ : BufTy).Contents (Elt F)),
    binary main_v3 main_v56 main_v57 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v58 (broadcastInDim S850000 ![] bcast_S_S850000 : (⟨S_, .i32⟩ : BufTy).Contents (Elt F) → (⟨S850000, .i32⟩ : BufTy).Contents (Elt F)),
    binary main_v3 main_v58 main_v59 (addi : (⟨S850000, .i32⟩ : BufTy).Contents (Elt F) → (⟨S850000, .i32⟩ : BufTy).Contents (Elt F) → (⟨S850000, .i32⟩ : BufTy).Contents (Elt F)),
    ternary main_v57 main_v59 main_v3 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v60 main_v61 (broadcastInDim S850000x1 ![0] bcast_S850000_S850000x1_0 : (⟨S850000, .i32⟩ : BufTy).Contents (Elt F) → (⟨S850000x1, .i32⟩ : BufTy).Contents (Elt F)),
    binary main_v55 main_v61 main_v62 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v63 (broadcastInDim S850000 ![] bcast_S_S850000 : (⟨S_, .i32⟩ : BufTy).Contents (Elt F) → (⟨S850000, .i32⟩ : BufTy).Contents (Elt F)),
    binary main_v6 main_v63 main_v64 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v65 (broadcastInDim S850000 ![] bcast_S_S850000 : (⟨S_, .i32⟩ : BufTy).Contents (Elt F) → (⟨S850000, .i32⟩ : BufTy).Contents (Elt F)),
    binary main_v6 main_v65 main_v66 (addi : (⟨S850000, .i32⟩ : BufTy).Contents (Elt F) → (⟨S850000, .i32⟩ : BufTy).Contents (Elt F) → (⟨S850000, .i32⟩ : BufTy).Contents (Elt F)),
    ternary main_v64 main_v66 main_v6 main_v67 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v67 main_v68 (broadcastInDim S850000x1 ![0] bcast_S850000_S850000x1_0 : (⟨S850000, .i32⟩ : BufTy).Contents (Elt F) → (⟨S850000x1, .i32⟩ : BufTy).Contents (Elt F)),
    binary main_v55 main_v68 main_v69 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v62 main_v69 main_v70 (mulf : (⟨S850000, .f32⟩ : BufTy).Contents (Elt F) → (⟨S850000, .f32⟩ : BufTy).Contents (Elt F) → (⟨S850000, .f32⟩ : BufTy).Contents (Elt F)) ]

abbrev c9 : List (HloOp τ sig (Elt F)) :=
  [ binary main_v47 main_arg4 main_v71 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_c_17 (constantI S_ 32 0#32),
    unary main_c_17 main_v72 (broadcastInDim S850000 ![] bcast_S_S850000 : (⟨S_, .i32⟩ : BufTy).Contents (Elt F) → (⟨S850000, .i32⟩ : BufTy).Contents (Elt F)),
    binary main_v3 main_v72 main_v73 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v74 (broadcastInDim S850000 ![] bcast_S_S850000 : (⟨S_, .i32⟩ : BufTy).Contents (Elt F) → (⟨S850000, .i32⟩ : BufTy).Contents (Elt F)),
    binary main_v3 main_v74 main_v75 (addi : (⟨S850000, .i32⟩ : BufTy).Contents (Elt F) → (⟨S850000, .i32⟩ : BufTy).Contents (Elt F) → (⟨S850000, .i32⟩ : BufTy).Contents (Elt F)),
    ternary main_v73 main_v75 main_v3 main_v76 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v76 main_v77 (broadcastInDim S850000x1 ![0] bcast_S850000_S850000x1_0 : (⟨S850000, .i32⟩ : BufTy).Contents (Elt F) → (⟨S850000x1, .i32⟩ : BufTy).Contents (Elt F)),
    binary main_v71 main_v77 main_v78 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v70 main_v79 (broadcastInDim S850000x1 ![0] bcast_S850000_S850000x1_0 : (⟨S850000, .f32⟩ : BufTy).Contents (Elt F) → (⟨S850000x1, .f32⟩ : BufTy).Contents (Elt F)),
    unary main_v79 main_v80 (broadcastInDim S850000x64 ![0, 1] bcast_S850000x1_S850000x64_0_1 : (⟨S850000x1, .f32⟩ : BufTy).Contents (Elt F) → (⟨S850000x64, .f32⟩ : BufTy).Contents (Elt F)),
    binary main_v78 main_v80 main_v81 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v82 (broadcastInDim S50000x64 ![] bcast_S_S50000x64 : (⟨S_, .f32⟩ : BufTy).Contents (Elt F) → (⟨S50000x64, .f32⟩ : BufTy).Contents (Elt F)),
    unary main_v6 main_v83 (broadcastInDim S850000x1 ![0] bcast_S850000_S850000x1_0 : (⟨S850000, .i32⟩ : BufTy).Contents (Elt F) → (⟨S850000x1, .i32⟩ : BufTy).Contents (Elt F)),
    ternary main_v82 main_v83 main_v81 main_v84 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v85 (broadcastInDim S1x64 ![1] bcast_S64_S1x64_1 : (⟨S64, .f32⟩ : BufTy).Contents (Elt F) → (⟨S1x64, .f32⟩ : BufTy).Contents (Elt F)),
    unary main_v85 main_v86 (broadcastInDim S50000x64 ![0, 1] bcast_S1x64_S50000x64_0_1 : (⟨S1x64, .f32⟩ : BufTy).Contents (Elt F) → (⟨S50000x64, .f32⟩ : BufTy).Contents (Elt F)),
    binary main_v84 main_v86 main_v87 (addf : (⟨S50000x64, .f32⟩ : BufTy).Contents (Elt F) → (⟨S50000x64, .f32⟩ : BufTy).Contents (Elt F) → (⟨S50000x64, .f32⟩ : BufTy).Contents (Elt F)) ]

abbrev c10 : List (HloOp τ sig (Elt F)) :=
  [ TRef.nullary (TRef.of (T := ⟨S_, .f32⟩) main_call3_cst) (constant S_ .f32 0xFF800000#32),
    TRef.binary (TRef.of (T := ⟨S50000x64, .f32⟩) main_v87) (TRef.of (T := ⟨S_, .f32⟩) main_call3_cst) (TRef.of (T := ⟨S50000, .f32⟩) main_call3_v0) (fun x v => Host.reduce FloatOps.maximumf x v reducesTo_S50000x64_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x64, .f32⟩) main_call3_v4) (broadcastInDim S50000x64 ![0, 1] bcast_S50000x1_S50000x64_0_1),
    TRef.binary (TRef.of (T := ⟨S50000x64, .f32⟩) main_v87) (TRef.of (T := ⟨S50000x64, .f32⟩) main_call3_v4) (TRef.of (T := ⟨S50000x64, .f32⟩) main_call3_v5) subf,
    TRef.unary (TRef.of (T := ⟨S50000x64, .f32⟩) main_call3_v5) (TRef.of (T := ⟨S50000x64, .f32⟩) main_call3_v6) Host.exp,
    TRef.nullary (TRef.of (T := ⟨S_, .f32⟩) main_call3_cst_1) (constant S_ .f32 0x00000000#32),
    TRef.binary (TRef.of (T := ⟨S50000x64, .f32⟩) main_call3_v6) (TRef.of (T := ⟨S_, .f32⟩) main_call3_cst_1) (TRef.of (T := ⟨S50000, .f32⟩) main_call3_v7) (fun x v => Host.reduceAdd x v reducesTo_S50000x64_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x64, .f32⟩) main_call3_v10) (broadcastInDim S50000x64 ![0, 1] bcast_S50000x1_S50000x64_0_1),
    TRef.binary (TRef.of (T := ⟨S50000x64, .f32⟩) main_call3_v5) (TRef.of (T := ⟨S50000x64, .f32⟩) main_call3_v10) (TRef.of (T := ⟨S50000x64, .f32⟩) main_v88) subf ]

/-- The program's operations are the ten stretches in order. -/
theorem ops_split : (ops (F := F)) = c1 ++ (c2 ++ (c3 ++ (c4 ++ (c5 ++ (c6 ++ (c7 ++ (c8 ++ (c9 ++ c10)))))))) := rfl

/-- Reads a buffer through a stretch: one pass over the stretch, then the reads that sit inside the pairs a
    two-operand concatenate is printed with. -/
local macro "read_stretch" : tactic => `(tactic| (after_results_simp; repeat (first | rw [StableHlo.reshape_result] | rw [StableHlo.unary_result] | rw [StableHlo.binary_result] | rw [StableHlo.nullary_result] | rw [StableHlo.ternary_result] | (rw [StableHlo.nullary_result_ne]; rotate_left; decide) | (rw [StableHlo.unary_result_ne]; rotate_left; decide) | (rw [StableHlo.binary_result_ne]; rotate_left; decide) | (rw [StableHlo.reshape_result_ne]; rotate_left; decide) | (rw [StableHlo.ternary_result_ne]; rotate_left; decide))))

/-- Contents carried to a buffer's own type and back are the contents. -/
theorem ofBuf_toBuf {T : BufTy} (x : TRef sig T) (v : T.Contents (Elt Ideal)) : x.ofBuf (x.toBuf v) = v := by
  unfold TRef.ofBuf TRef.toBuf
  rw [cast_cast]
  exact cast_eq _ _

/-! ## Stretch 1: edge lists with a self-loop per node, the degree count, its test against zero, its 1/√ -/

theorem c1_src (Wa : Valuation τ sig (Elt Ideal)) : after (c1 (F := Ideal)) Wa (Proc.devRef .tc main_v3) = val_main_v3 (Wa (Proc.devRef .tc main_arg1)) := by
  read_stretch
  rfl
theorem c1_dst (Wa : Valuation τ sig (Elt Ideal)) : after (c1 (F := Ideal)) Wa (Proc.devRef .tc main_v6) = val_main_v6 (Wa (Proc.devRef .tc main_arg1)) := by
  read_stretch
  rfl
theorem c1_positive (Wa : Valuation τ sig (Elt Ideal)) : after (c1 (F := Ideal)) Wa (Proc.devRef .tc main_v12) = val_main_v12 (Wa (Proc.devRef .tc main_arg1)) := by
  read_stretch
  rfl
theorem c1_rsqrt (Wa : Valuation τ sig (Elt Ideal)) : after (c1 (F := Ideal)) Wa (Proc.devRef .tc main_v13) = val_main_v13 (Wa (Proc.devRef .tc main_arg1)) := by
  read_stretch
  rfl
theorem c1_zero (Wa : Valuation τ sig (Elt Ideal)) : after (c1 (F := Ideal)) Wa (Proc.devRef .tc main_cst_2) = val_main_cst_2 (F := Ideal) := by
  read_stretch
  rfl
theorem c1_keeps_arg0 (Wa : Valuation τ sig (Elt Ideal)) : after (c1 (F := Ideal)) Wa (Proc.devRef .tc main_arg0) = Wa (Proc.devRef .tc main_arg0) := by read_stretch
theorem c1_keeps_arg2 (Wa : Valuation τ sig (Elt Ideal)) : after (c1 (F := Ideal)) Wa (Proc.devRef .tc main_arg2) = Wa (Proc.devRef .tc main_arg2) := by read_stretch
theorem c1_keeps_arg3 (Wa : Valuation τ sig (Elt Ideal)) : after (c1 (F := Ideal)) Wa (Proc.devRef .tc main_arg3) = Wa (Proc.devRef .tc main_arg3) := by read_stretch
theorem c1_keeps_arg4 (Wa : Valuation τ sig (Elt Ideal)) : after (c1 (F := Ideal)) Wa (Proc.devRef .tc main_arg4) = Wa (Proc.devRef .tc main_arg4) := by read_stretch
theorem c1_keeps_arg5 (Wa : Valuation τ sig (Elt Ideal)) : after (c1 (F := Ideal)) Wa (Proc.devRef .tc main_arg5) = Wa (Proc.devRef .tc main_arg5) := by read_stretch

/-! ## Stretch 2: 1/√degree where the degree is positive, zero elsewhere -/

theorem c2_where (Wa : Valuation τ sig (Elt Ideal)) :
    after (c2 (F := Ideal)) Wa (Proc.devRef .tc main_v14)
      = select (s := S50000) (Wa (Proc.devRef .tc main_v12) : S50000.Idx → BitVec 1) (Wa (Proc.devRef .tc main_v13) : S50000.Idx → EReal)
          (broadcastInDim S50000 ![] bcast_S_S50000 (id (Wa (Proc.devRef .tc main_cst_2) : S_.Idx → EReal))) := by
  read_stretch
  rfl
theorem c2_keeps_v3 (Wa : Valuation τ sig (Elt Ideal)) : after (c2 (F := Ideal)) Wa (Proc.devRef .tc main_v3) = Wa (Proc.devRef .tc main_v3) := by read_stretch
theorem c2_keeps_v6 (Wa : Valuation τ sig (Elt Ideal)) : after (c2 (F := Ideal)) Wa (Proc.devRef .tc main_v6) = Wa (Proc.devRef .tc main_v6) := by read_stretch
theorem c2_keeps_arg0 (Wa : Valuation τ sig (Elt Ideal)) : after (c2 (F := Ideal)) Wa (Proc.devRef .tc main_arg0) = Wa (Proc.devRef .tc main_arg0) := by read_stretch
theorem c2_keeps_arg2 (Wa : Valuation τ sig (Elt Ideal)) : after (c2 (F := Ideal)) Wa (Proc.devRef .tc main_arg2) = Wa (Proc.devRef .tc main_arg2) := by read_stretch
theorem c2_keeps_arg3 (Wa : Valuation τ sig (Elt Ideal)) : after (c2 (F := Ideal)) Wa (Proc.devRef .tc main_arg3) = Wa (Proc.devRef .tc main_arg3) := by read_stretch
theorem c2_keeps_arg4 (Wa : Valuation τ sig (Elt Ideal)) : after (c2 (F := Ideal)) Wa (Proc.devRef .tc main_arg4) = Wa (Proc.devRef .tc main_arg4) := by read_stretch
theorem c2_keeps_arg5 (Wa : Valuation τ sig (Elt Ideal)) : after (c2 (F := Ideal)) Wa (Proc.devRef .tc main_arg5) = Wa (Proc.devRef .tc main_arg5) := by read_stretch

/-! ## Stretch 3: the edge weights -/

theorem c3_weight (Wa : Valuation τ sig (Elt Ideal)) (x1 : (⟨S2x800000, .i32⟩ : BufTy).Contents (Elt Ideal))
    (h14 : Wa (Proc.devRef .tc main_v14) = val_main_v14 x1) (h3 : Wa (Proc.devRef .tc main_v3) = val_main_v3 x1) (h6 : Wa (Proc.devRef .tc main_v6) = val_main_v6 x1) :
    after (c3 (F := Ideal)) Wa (Proc.devRef .tc main_v29) = val_main_v29 x1 := by
  read_stretch
  rw [h14, h3, h6]
  rfl
theorem c3_keeps_v3 (Wa : Valuation τ sig (Elt Ideal)) : after (c3 (F := Ideal)) Wa (Proc.devRef .tc main_v3) = Wa (Proc.devRef .tc main_v3) := by read_stretch
theorem c3_keeps_v6 (Wa : Valuation τ sig (Elt Ideal)) : after (c3 (F := Ideal)) Wa (Proc.devRef .tc main_v6) = Wa (Proc.devRef .tc main_v6) := by read_stretch
theorem c3_keeps_arg0 (Wa : Valuation τ sig (Elt Ideal)) : after (c3 (F := Ideal)) Wa (Proc.devRef .tc main_arg0) = Wa (Proc.devRef .tc main_arg0) := by read_stretch
theorem c3_keeps_arg2 (Wa : Valuation τ sig (Elt Ideal)) : after (c3 (F := Ideal)) Wa (Proc.devRef .tc main_arg2) = Wa (Proc.devRef .tc main_arg2) := by read_stretch
theorem c3_keeps_arg3 (Wa : Valuation τ sig (Elt Ideal)) : after (c3 (F := Ideal)) Wa (Proc.devRef .tc main_arg3) = Wa (Proc.devRef .tc main_arg3) := by read_stretch
theorem c3_keeps_arg4 (Wa : Valuation τ sig (Elt Ideal)) : after (c3 (F := Ideal)) Wa (Proc.devRef .tc main_arg4) = Wa (Proc.devRef .tc main_arg4) := by read_stretch
theorem c3_keeps_arg5 (Wa : Valuation τ sig (Elt Ideal)) : after (c3 (F := Ideal)) Wa (Proc.devRef .tc main_arg5) = Wa (Proc.devRef .tc main_arg5) := by read_stretch

/-! ## Stretch 4: the first layer up to the bias -/

theorem c4_layer (Wa : Valuation τ sig (Elt Ideal)) (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal))
    (ha0 : Wa (Proc.devRef .tc main_arg0) = x0) (ha2 : Wa (Proc.devRef .tc main_arg2) = x2) (ha3 : Wa (Proc.devRef .tc main_arg3) = x3)
    (h3 : Wa (Proc.devRef .tc main_v3) = val_main_v3 x1) (h6 : Wa (Proc.devRef .tc main_v6) = val_main_v6 x1) (h29 : Wa (Proc.devRef .tc main_v29) = val_main_v29 x1) :
    after (c4 (F := Ideal)) Wa (Proc.devRef .tc main_v46) = val_main_v46 x0 x1 x2 x3 := by
  read_stretch
  rw [ha0, ha2, ha3, h3, h6, h29]
  rfl
theorem c4_keeps_v3 (Wa : Valuation τ sig (Elt Ideal)) : after (c4 (F := Ideal)) Wa (Proc.devRef .tc main_v3) = Wa (Proc.devRef .tc main_v3) := by read_stretch
theorem c4_keeps_v6 (Wa : Valuation τ sig (Elt Ideal)) : after (c4 (F := Ideal)) Wa (Proc.devRef .tc main_v6) = Wa (Proc.devRef .tc main_v6) := by read_stretch
theorem c4_keeps_arg4 (Wa : Valuation τ sig (Elt Ideal)) : after (c4 (F := Ideal)) Wa (Proc.devRef .tc main_arg4) = Wa (Proc.devRef .tc main_arg4) := by read_stretch
theorem c4_keeps_arg5 (Wa : Valuation τ sig (Elt Ideal)) : after (c4 (F := Ideal)) Wa (Proc.devRef .tc main_arg5) = Wa (Proc.devRef .tc main_arg5) := by read_stretch

/-! ## Stretch 5: the relu -/

theorem c5_relu (Wa : Valuation τ sig (Elt Ideal)) :
    after (c5 (F := Ideal)) Wa (Proc.devRef .tc main_v47)
      = maximumf (Wa (Proc.devRef .tc main_v46) : S50000x128.Idx → EReal) (broadcastInDim S50000x128 ![] bcast_S_S50000x128 (constant (F := Ideal) S_ .f32 0x00000000#32)) := by
  read_stretch
  rfl
theorem c5_keeps_v3 (Wa : Valuation τ sig (Elt Ideal)) : after (c5 (F := Ideal)) Wa (Proc.devRef .tc main_v3) = Wa (Proc.devRef .tc main_v3) := by read_stretch
theorem c5_keeps_v6 (Wa : Valuation τ sig (Elt Ideal)) : after (c5 (F := Ideal)) Wa (Proc.devRef .tc main_v6) = Wa (Proc.devRef .tc main_v6) := by read_stretch
theorem c5_keeps_arg4 (Wa : Valuation τ sig (Elt Ideal)) : after (c5 (F := Ideal)) Wa (Proc.devRef .tc main_arg4) = Wa (Proc.devRef .tc main_arg4) := by read_stretch
theorem c5_keeps_arg5 (Wa : Valuation τ sig (Elt Ideal)) : after (c5 (F := Ideal)) Wa (Proc.devRef .tc main_arg5) = Wa (Proc.devRef .tc main_arg5) := by read_stretch

/-! ## Stretches 6 to 8: the degree, its guarded 1/√ and the edge weights, computed a second time -/

theorem c6_positive (Wa : Valuation τ sig (Elt Ideal)) (x1 : (⟨S2x800000, .i32⟩ : BufTy).Contents (Elt Ideal)) (h6 : Wa (Proc.devRef .tc main_v6) = val_main_v6 x1) :
    after (c6 (F := Ideal)) Wa (Proc.devRef .tc main_v53) = val_main_v53 x1 := by
  read_stretch
  rw [h6]
  rfl
theorem c6_rsqrt (Wa : Valuation τ sig (Elt Ideal)) (x1 : (⟨S2x800000, .i32⟩ : BufTy).Contents (Elt Ideal)) (h6 : Wa (Proc.devRef .tc main_v6) = val_main_v6 x1) :
    after (c6 (F := Ideal)) Wa (Proc.devRef .tc main_v54) = val_main_v54 x1 := by
  read_stretch
  rw [h6]
  rfl
theorem c6_zero (Wa : Valuation τ sig (Elt Ideal)) : after (c6 (F := Ideal)) Wa (Proc.devRef .tc main_cst_12) = val_main_cst_12 (F := Ideal) := by
  read_stretch
  rfl
theorem c6_keeps_v3 (Wa : Valuation τ sig (Elt Ideal)) : after (c6 (F := Ideal)) Wa (Proc.devRef .tc main_v3) = Wa (Proc.devRef .tc main_v3) := by read_stretch
theorem c6_keeps_v6 (Wa : Valuation τ sig (Elt Ideal)) : after (c6 (F := Ideal)) Wa (Proc.devRef .tc main_v6) = Wa (Proc.devRef .tc main_v6) := by read_stretch
theorem c6_keeps_v47 (Wa : Valuation τ sig (Elt Ideal)) : after (c6 (F := Ideal)) Wa (Proc.devRef .tc main_v47) = Wa (Proc.devRef .tc main_v47) := by read_stretch
theorem c6_keeps_arg4 (Wa : Valuation τ sig (Elt Ideal)) : after (c6 (F := Ideal)) Wa (Proc.devRef .tc main_arg4) = Wa (Proc.devRef .tc main_arg4) := by read_stretch
theorem c6_keeps_arg5 (Wa : Valuation τ sig (Elt Ideal)) : after (c6 (F := Ideal)) Wa (Proc.devRef .tc main_arg5) = Wa (Proc.devRef .tc main_arg5) := by read_stretch

theorem c7_where (Wa : Valuation τ sig (Elt Ideal)) :
    after (c7 (F := Ideal)) Wa (Proc.devRef .tc main_v55)
      = select (s := S50000) (Wa (Proc.devRef .tc main_v53) : S50000.Idx → BitVec 1) (Wa (Proc.devRef .tc main_v54) : S50000.Idx → EReal)
          (broadcastInDim S50000 ![] bcast_S_S50000 (id (Wa (Proc.devRef .tc main_cst_12) : S_.Idx → EReal))) := by
  read_stretch
  rfl
theorem c7_keeps_v3 (Wa : Valuation τ sig (Elt Ideal)) : after (c7 (F := Ideal)) Wa (Proc.devRef .tc main_v3) = Wa (Proc.devRef .tc main_v3) := by read_stretch
theorem c7_keeps_v6 (Wa : Valuation τ sig (Elt Ideal)) : after (c7 (F := Ideal)) Wa (Proc.devRef .tc main_v6) = Wa (Proc.devRef .tc main_v6) := by read_stretch
theorem c7_keeps_v47 (Wa : Valuation τ sig (Elt Ideal)) : after (c7 (F := Ideal)) Wa (Proc.devRef .tc main_v47) = Wa (Proc.devRef .tc main_v47) := by read_stretch
theorem c7_keeps_arg4 (Wa : Valuation τ sig (Elt Ideal)) : after (c7 (F := Ideal)) Wa (Proc.devRef .tc main_arg4) = Wa (Proc.devRef .tc main_arg4) := by read_stretch
theorem c7_keeps_arg5 (Wa : Valuation τ sig (Elt Ideal)) : after (c7 (F := Ideal)) Wa (Proc.devRef .tc main_arg5) = Wa (Proc.devRef .tc main_arg5) := by read_stretch

theorem c8_weight (Wa : Valuation τ sig (Elt Ideal)) (x1 : (⟨S2x800000, .i32⟩ : BufTy).Contents (Elt Ideal))
    (h55 : Wa (Proc.devRef .tc main_v55) = val_main_v55 x1) (h3 : Wa (Proc.devRef .tc main_v3) = val_main_v3 x1) (h6 : Wa (Proc.devRef .tc main_v6) = val_main_v6 x1) :
    after (c8 (F := Ideal)) Wa (Proc.devRef .tc main_v70) = val_main_v70 x1 := by
  read_stretch
  rw [h55, h3, h6]
  rfl
theorem c8_keeps_v3 (Wa : Valuation τ sig (Elt Ideal)) : after (c8 (F := Ideal)) Wa (Proc.devRef .tc main_v3) = Wa (Proc.devRef .tc main_v3) := by read_stretch
theorem c8_keeps_v6 (Wa : Valuation τ sig (Elt Ideal)) : after (c8 (F := Ideal)) Wa (Proc.devRef .tc main_v6) = Wa (Proc.devRef .tc main_v6) := by read_stretch
theorem c8_keeps_v47 (Wa : Valuation τ sig (Elt Ideal)) : after (c8 (F := Ideal)) Wa (Proc.devRef .tc main_v47) = Wa (Proc.devRef .tc main_v47) := by read_stretch
theorem c8_keeps_arg4 (Wa : Valuation τ sig (Elt Ideal)) : after (c8 (F := Ideal)) Wa (Proc.devRef .tc main_arg4) = Wa (Proc.devRef .tc main_arg4) := by read_stretch
theorem c8_keeps_arg5 (Wa : Valuation τ sig (Elt Ideal)) : after (c8 (F := Ideal)) Wa (Proc.devRef .tc main_arg5) = Wa (Proc.devRef .tc main_arg5) := by read_stretch

/-! ## Stretch 9: the second layer up to the bias -/

theorem c9_layer (Wa : Valuation τ sig (Elt Ideal)) (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal))
    (h47 : Wa (Proc.devRef .tc main_v47) = val_main_v47 x0 x1 x2 x3) (ha4 : Wa (Proc.devRef .tc main_arg4) = x4) (ha5 : Wa (Proc.devRef .tc main_arg5) = x5)
    (h3 : Wa (Proc.devRef .tc main_v3) = val_main_v3 x1) (h6 : Wa (Proc.devRef .tc main_v6) = val_main_v6 x1) (h70 : Wa (Proc.devRef .tc main_v70) = val_main_v70 x1) :
    after (c9 (F := Ideal)) Wa (Proc.devRef .tc main_v87) = val_main_v87 x0 x1 x2 x3 x4 x5 := by
  read_stretch
  rw [h47, ha4, ha5, h3, h6, h70]
  rfl

/-! ## Stretch 10: the log-softmax, over any array of logits -/

/-- The reference's log-softmax of an array `Z` of rows: its operations, in order. -/
def logSoftmaxOf (Z : FVec Ideal S50000x64 .f32) : FVec Ideal S50000x64 .f32 :=
  subf (subf (Z) (broadcastInDim S50000x64 ![0, 1] bcast_S50000x1_S50000x64_0_1 (broadcastInDim S50000x1 ![0] bcast_S50000_S50000x1_0 (maximumf (broadcastInDim S50000 ![] bcast_S_S50000 (constant S_ .f32 0xFF800000#32)) (Host.reduce FloatOps.maximumf (Z) (constant S_ .f32 0xFF800000#32) reducesTo_S50000x64_S50000_d1 h_S_))))) (broadcastInDim S50000x64 ![0, 1] bcast_S50000x1_S50000x64_0_1 (Host.log (broadcastInDim S50000x1 ![0] bcast_S50000_S50000x1_0 (Host.reduceAdd (Host.exp (subf (Z) (broadcastInDim S50000x64 ![0, 1] bcast_S50000x1_S50000x64_0_1 (broadcastInDim S50000x1 ![0] bcast_S50000_S50000x1_0 (maximumf (broadcastInDim S50000 ![] bcast_S_S50000 (constant S_ .f32 0xFF800000#32)) (Host.reduce FloatOps.maximumf (Z) (constant S_ .f32 0xFF800000#32) reducesTo_S50000x64_S50000_d1 h_S_)))))) (constant S_ .f32 0x00000000#32) reducesTo_S50000x64_S50000_d1 h_S_))))

theorem c10_logSoftmax (Wa : Valuation τ sig (Elt Ideal)) :
    after (c10 (F := Ideal)) Wa (Proc.devRef .tc main_v88) = logSoftmaxOf (Wa (Proc.devRef .tc main_v87)) := by
  read_stretch
  simp only [ofBuf_toBuf]
  rfl

/-- Of the stage the reference takes it of, that is the reference's last stage. -/
theorem logSoftmaxOf_logits (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) :
    logSoftmaxOf (val_main_v87 (F := Ideal) x0 x1 x2 x3 x4 x5) = val_main_v88 (F := Ideal) x0 x1 x2 x3 x4 x5 := by
  unfold logSoftmaxOf val_main_v88 val_main_call3_v5 val_main_call3_v4 val_main_call3_v3 val_main_call3_v2 val_main_call3_v1 val_main_call3_cst_0 val_main_call3_v0 val_main_call3_cst val_main_call3_v10 val_main_call3_v9 val_main_call3_v8 val_main_call3_v7 val_main_call3_v6 val_main_call3_cst_1
  rfl

end Cert.ReferenceIdeal.Stretches

end
-- ==== Proof.ReferenceResult.lean ====
/-
  The reference program's result buffer ends holding its last stage of the argument arrays.

  The contents of the buffers after each of the ten stretches are named in order; each stretch's lemma turns the
  contents it reads into the next stage.
-/
import proofs.«140220_j49005576848207_1_alg».proof.Proof.ReferenceStretches

set_option maxRecDepth 16384

noncomputable section

namespace Cert.ReferenceIdeal.Stretches

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (m : (ℓ : Loc nD τ sig) → Buf (Elt Ideal) ℓ) (c : Dev nD)

/-- The buffers' contents at launch, and after each stretch. -/
abbrev V0 : Valuation τ sig (Elt Ideal) := launchContents m c
abbrev V1 : Valuation τ sig (Elt Ideal) := after (c1 (F := Ideal)) (V0 m c)
abbrev V2 : Valuation τ sig (Elt Ideal) := after (c2 (F := Ideal)) (V1 m c)
abbrev V3 : Valuation τ sig (Elt Ideal) := after (c3 (F := Ideal)) (V2 m c)
abbrev V4 : Valuation τ sig (Elt Ideal) := after (c4 (F := Ideal)) (V3 m c)
abbrev V5 : Valuation τ sig (Elt Ideal) := after (c5 (F := Ideal)) (V4 m c)
abbrev V6 : Valuation τ sig (Elt Ideal) := after (c6 (F := Ideal)) (V5 m c)
abbrev V7 : Valuation τ sig (Elt Ideal) := after (c7 (F := Ideal)) (V6 m c)
abbrev V8 : Valuation τ sig (Elt Ideal) := after (c8 (F := Ideal)) (V7 m c)
abbrev V9 : Valuation τ sig (Elt Ideal) := after (c9 (F := Ideal)) (V8 m c)
abbrev V10 : Valuation τ sig (Elt Ideal) := after (c10 (F := Ideal)) (V9 m c)

/-- Running all the operations is running the ten stretches one after the other. -/
theorem after_ops : after (ops (F := Ideal)) (launchContents m c) = V10 m c := by
  rw [ops_split]
  simp only [StableHlo.after_append]

/-- The result buffer after the last stretch: the reference's last stage of the argument arrays. -/
theorem result_stage : V10 m c (Proc.devRef .tc main_v88) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have src1 : (V1 m c) (Proc.devRef .tc main_v3) = val_main_v3 (m ((c.tc : Thread nD τ).loc main_arg1)) := c1_src (V0 m c)
  have dst1 : (V1 m c) (Proc.devRef .tc main_v6) = val_main_v6 (m ((c.tc : Thread nD τ).loc main_arg1)) := c1_dst (V0 m c)
  have pos1 : (V1 m c) (Proc.devRef .tc main_v12) = val_main_v12 (m ((c.tc : Thread nD τ).loc main_arg1)) := c1_positive (V0 m c)
  have rsq1 : (V1 m c) (Proc.devRef .tc main_v13) = val_main_v13 (m ((c.tc : Thread nD τ).loc main_arg1)) := c1_rsqrt (V0 m c)
  have zer1 : (V1 m c) (Proc.devRef .tc main_cst_2) = val_main_cst_2 (F := Ideal) := c1_zero (V0 m c)
  have a0_1 : (V1 m c) (Proc.devRef .tc main_arg0) = (m ((c.tc : Thread nD τ).loc main_arg0)) := c1_keeps_arg0 (V0 m c)
  have a2_1 : (V1 m c) (Proc.devRef .tc main_arg2) = (m ((c.tc : Thread nD τ).loc main_arg2)) := c1_keeps_arg2 (V0 m c)
  have a3_1 : (V1 m c) (Proc.devRef .tc main_arg3) = (m ((c.tc : Thread nD τ).loc main_arg3)) := c1_keeps_arg3 (V0 m c)
  have a4_1 : (V1 m c) (Proc.devRef .tc main_arg4) = (m ((c.tc : Thread nD τ).loc main_arg4)) := c1_keeps_arg4 (V0 m c)
  have a5_1 : (V1 m c) (Proc.devRef .tc main_arg5) = (m ((c.tc : Thread nD τ).loc main_arg5)) := c1_keeps_arg5 (V0 m c)
  have inv2 : (V2 m c) (Proc.devRef .tc main_v14) = val_main_v14 (m ((c.tc : Thread nD τ).loc main_arg1)) := (c2_where (V1 m c)).trans (by rw [pos1, rsq1, zer1]; rfl)
  have src2 : (V2 m c) (Proc.devRef .tc main_v3) = _ := (c2_keeps_v3 (V1 m c)).trans src1
  have dst2 : (V2 m c) (Proc.devRef .tc main_v6) = _ := (c2_keeps_v6 (V1 m c)).trans dst1
  have a0_2 : (V2 m c) (Proc.devRef .tc main_arg0) = _ := (c2_keeps_arg0 (V1 m c)).trans a0_1
  have a2_2 : (V2 m c) (Proc.devRef .tc main_arg2) = _ := (c2_keeps_arg2 (V1 m c)).trans a2_1
  have a3_2 : (V2 m c) (Proc.devRef .tc main_arg3) = _ := (c2_keeps_arg3 (V1 m c)).trans a3_1
  have a4_2 : (V2 m c) (Proc.devRef .tc main_arg4) = _ := (c2_keeps_arg4 (V1 m c)).trans a4_1
  have a5_2 : (V2 m c) (Proc.devRef .tc main_arg5) = _ := (c2_keeps_arg5 (V1 m c)).trans a5_1
  have w3 : (V3 m c) (Proc.devRef .tc main_v29) = val_main_v29 (m ((c.tc : Thread nD τ).loc main_arg1)) := c3_weight (V2 m c) _ inv2 src2 dst2
  have src3 : (V3 m c) (Proc.devRef .tc main_v3) = _ := (c3_keeps_v3 (V2 m c)).trans src2
  have dst3 : (V3 m c) (Proc.devRef .tc main_v6) = _ := (c3_keeps_v6 (V2 m c)).trans dst2
  have a0_3 : (V3 m c) (Proc.devRef .tc main_arg0) = _ := (c3_keeps_arg0 (V2 m c)).trans a0_2
  have a2_3 : (V3 m c) (Proc.devRef .tc main_arg2) = _ := (c3_keeps_arg2 (V2 m c)).trans a2_2
  have a3_3 : (V3 m c) (Proc.devRef .tc main_arg3) = _ := (c3_keeps_arg3 (V2 m c)).trans a3_2
  have a4_3 : (V3 m c) (Proc.devRef .tc main_arg4) = _ := (c3_keeps_arg4 (V2 m c)).trans a4_2
  have a5_3 : (V3 m c) (Proc.devRef .tc main_arg5) = _ := (c3_keeps_arg5 (V2 m c)).trans a5_2
  have l4 : (V4 m c) (Proc.devRef .tc main_v46) = val_main_v46 (m ((c.tc : Thread nD τ).loc main_arg0)) (m ((c.tc : Thread nD τ).loc main_arg1)) (m ((c.tc : Thread nD τ).loc main_arg2)) (m ((c.tc : Thread nD τ).loc main_arg3)) := c4_layer (V3 m c) _ _ _ _ a0_3 a2_3 a3_3 src3 dst3 w3
  have src4 : (V4 m c) (Proc.devRef .tc main_v3) = _ := (c4_keeps_v3 (V3 m c)).trans src3
  have dst4 : (V4 m c) (Proc.devRef .tc main_v6) = _ := (c4_keeps_v6 (V3 m c)).trans dst3
  have a4_4 : (V4 m c) (Proc.devRef .tc main_arg4) = _ := (c4_keeps_arg4 (V3 m c)).trans a4_3
  have a5_4 : (V4 m c) (Proc.devRef .tc main_arg5) = _ := (c4_keeps_arg5 (V3 m c)).trans a5_3
  have r5 : (V5 m c) (Proc.devRef .tc main_v47) = val_main_v47 (m ((c.tc : Thread nD τ).loc main_arg0)) (m ((c.tc : Thread nD τ).loc main_arg1)) (m ((c.tc : Thread nD τ).loc main_arg2)) (m ((c.tc : Thread nD τ).loc main_arg3)) := (c5_relu (V4 m c)).trans (by rw [l4]; rfl)
  have src5 : (V5 m c) (Proc.devRef .tc main_v3) = _ := (c5_keeps_v3 (V4 m c)).trans src4
  have dst5 : (V5 m c) (Proc.devRef .tc main_v6) = _ := (c5_keeps_v6 (V4 m c)).trans dst4
  have a4_5 : (V5 m c) (Proc.devRef .tc main_arg4) = _ := (c5_keeps_arg4 (V4 m c)).trans a4_4
  have a5_5 : (V5 m c) (Proc.devRef .tc main_arg5) = _ := (c5_keeps_arg5 (V4 m c)).trans a5_4
  have pos6 : (V6 m c) (Proc.devRef .tc main_v53) = val_main_v53 (m ((c.tc : Thread nD τ).loc main_arg1)) := c6_positive (V5 m c) _ dst5
  have rsq6 : (V6 m c) (Proc.devRef .tc main_v54) = val_main_v54 (m ((c.tc : Thread nD τ).loc main_arg1)) := c6_rsqrt (V5 m c) _ dst5
  have zer6 : (V6 m c) (Proc.devRef .tc main_cst_12) = val_main_cst_12 (F := Ideal) := c6_zero (V5 m c)
  have src6 : (V6 m c) (Proc.devRef .tc main_v3) = _ := (c6_keeps_v3 (V5 m c)).trans src5
  have dst6 : (V6 m c) (Proc.devRef .tc main_v6) = _ := (c6_keeps_v6 (V5 m c)).trans dst5
  have r6 : (V6 m c) (Proc.devRef .tc main_v47) = _ := (c6_keeps_v47 (V5 m c)).trans r5
  have a4_6 : (V6 m c) (Proc.devRef .tc main_arg4) = _ := (c6_keeps_arg4 (V5 m c)).trans a4_5
  have a5_6 : (V6 m c) (Proc.devRef .tc main_arg5) = _ := (c6_keeps_arg5 (V5 m c)).trans a5_5
  have inv7 : (V7 m c) (Proc.devRef .tc main_v55) = val_main_v55 (m ((c.tc : Thread nD τ).loc main_arg1)) := (c7_where (V6 m c)).trans (by rw [pos6, rsq6, zer6]; rfl)
  have src7 : (V7 m c) (Proc.devRef .tc main_v3) = _ := (c7_keeps_v3 (V6 m c)).trans src6
  have dst7 : (V7 m c) (Proc.devRef .tc main_v6) = _ := (c7_keeps_v6 (V6 m c)).trans dst6
  have r7 : (V7 m c) (Proc.devRef .tc main_v47) = _ := (c7_keeps_v47 (V6 m c)).trans r6
  have a4_7 : (V7 m c) (Proc.devRef .tc main_arg4) = _ := (c7_keeps_arg4 (V6 m c)).trans a4_6
  have a5_7 : (V7 m c) (Proc.devRef .tc main_arg5) = _ := (c7_keeps_arg5 (V6 m c)).trans a5_6
  have w8 : (V8 m c) (Proc.devRef .tc main_v70) = val_main_v70 (m ((c.tc : Thread nD τ).loc main_arg1)) := c8_weight (V7 m c) _ inv7 src7 dst7
  have src8 : (V8 m c) (Proc.devRef .tc main_v3) = _ := (c8_keeps_v3 (V7 m c)).trans src7
  have dst8 : (V8 m c) (Proc.devRef .tc main_v6) = _ := (c8_keeps_v6 (V7 m c)).trans dst7
  have r8 : (V8 m c) (Proc.devRef .tc main_v47) = _ := (c8_keeps_v47 (V7 m c)).trans r7
  have a4_8 : (V8 m c) (Proc.devRef .tc main_arg4) = _ := (c8_keeps_arg4 (V7 m c)).trans a4_7
  have a5_8 : (V8 m c) (Proc.devRef .tc main_arg5) = _ := (c8_keeps_arg5 (V7 m c)).trans a5_7
  have z9 : (V9 m c) (Proc.devRef .tc main_v87) = val_main_v87 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := c9_layer (V8 m c) _ _ _ _ _ _ r8 a4_8 a5_8 src8 dst8 w8
  exact (c10_logSoftmax (V9 m c)).trans (by rw [z9]; exact logSoftmaxOf_logits _ _ _ _ _ _)

/-- The same, for the program's whole line of operations. -/
theorem result_eq : after (ops (F := Ideal)) (launchContents m c) (Proc.devRef .tc main_v88) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]
  exact result_stage m c

end Cert.ReferenceIdeal.Stretches

end
-- ==== Proof.PreReal.lean ====
/-
  What the precondition says: every float argument holds real numbers.

  The precondition is one bit, the conjunction over the five float arguments of "every entry's absolute value is below
  +∞". A conjunction of bits that is 1 has every conjunct 1; an "all" over an array that is 1 has every entry's test 1;
  and an extended real whose absolute value max x (−x) is below +∞ is a real number.
-/
import proofs.«140220_j49005576848207_1_alg».proof.Pre_finite_inputs
import proofs.«140220_j49005576848207_1_alg».proof.Proof.LibRealArrays
import Idealize.ShloMosaic.Lib.ReduceAll
import Idealize.ShloMosaic.Lib.Affine
import Idealize.ShloMosaic.PureOps.Ideal

noncomputable section

namespace Cert.Pre_finite_inputs.Decode

open Cert.Pre_finite_inputs Cert.Pre_finite_inputs.Facts Cert.Lib Cert.Lib.RealArrays
open Idealize.ShloMosaic Idealize.ShloMosaic.ValueIdx

instance : Subsingleton S_.Idx := ⟨fun a b => funext fun d => d.elim0⟩

/-- One conjunct: "all entries of |a| are below +∞" is 1, so every entry of `a` is a real number. -/
theorem allReal_of_all {s : Shape} {axes : List (Fin s.rank)} (a : FVec Ideal s .f32)
    (hb : S_.BroadcastsInDim s (![] : Fin 0 → Fin s.rank)) (h' : s.ReducesTo axes S_) (hu : 0 < S_.numel)
    (e : Host.reduce IntOp.andi (cmpf .olt (Host.absf a) (broadcastInDim s ![] hb (constant S_ .f32 0x7F800000#32)))
      (constantI S_ 1 1#1) h' hu ix0 = 1#1) : AllReal a := fun i =>
  RealScalars.real_of_abs_lt (a i) (Host.reduce_andi_all _ _ h' hu ix0 e i)

variable [Facts]

/-- The precondition, decoded: the five float arguments hold real numbers. -/
theorem args_real (a0 : FVec Ideal S50000x128 .f32) (a1 : IVec S2x800000 32) (a2 : FVec Ideal S128x128 .f32)
    (a3 : FVec Ideal S128 .f32) (a4 : FVec Ideal S128x64 .f32) (a5 : FVec Ideal S64 .f32)
    (h : fn (F := Ideal) a0 a1 a2 a3 a4 a5 = fun _ => 1#1) :
    AllReal a0 ∧ AllReal a2 ∧ AllReal a3 ∧ AllReal a4 ∧ AllReal a5 := by
  have h1 := congrFun h ix0
  dsimp only [fn, fn_part1] at h1
  obtain ⟨h1234, e5⟩ := IntOp.andi_eq_one.mp h1
  obtain ⟨h123, e4⟩ := IntOp.andi_eq_one.mp h1234
  obtain ⟨h12, e3⟩ := IntOp.andi_eq_one.mp h123
  obtain ⟨e0, e2⟩ := IntOp.andi_eq_one.mp h12
  exact ⟨allReal_of_all a0 _ _ _ e0, allReal_of_all a2 _ _ _ e2, allReal_of_all a3 _ _ _ e3, allReal_of_all a4 _ _ _ e4,
    allReal_of_all a5 _ _ _ e5⟩

end Cert.Pre_finite_inputs.Decode

end
-- ==== Proof.lean ====
/-
  A two-layer graph convolution with self-loops, symmetric 1/√degree normalisation, a relu between the layers and a
  log-softmax at the end: the kernel program against its whole-array reference, at the ideal values.

  Both programs build the same edge lists (the given edges plus one self-loop per node), count degrees by summing ones
  into the target nodes, take 1/√degree where the degree is positive and 0 elsewhere, and weight each edge by the product
  of that number at its two ends. A layer multiplies the node features by a weight matrix, gathers the product's rows at
  the edges' sources, scales each by the edge weight, sums them into the edges' targets and adds a bias. The kernel
  program does the two matrix products, "bias then relu" and "bias then log-softmax" in four row-blocked regions and
  everything else by the reference's own operations. At the ideal values a change of float format is the identity, a
  matrix product into a zero accumulator is the contraction, entry by entry the same finite sum; every block a region
  writes back is the corresponding block of one whole-array function, and the blocks tile the output. So up to the last
  step the two programs hold the same arrays, stage by stage. The last step differs in spelling: the kernel leaves
  L s − (log (Σ k, exp (L k − M)) + M) in every row L with largest entry M, the reference (L s − M) − log (Σ k, exp (L k − M)).
  These differ when a row holds an infinity; under the precondition every float argument is real, every stage of the
  network is then real, and on a row of real numbers the two spellings are one number.

  The frames of the two kernel programs are the generated ones; the reference's frame is its run with the result dropped;
  no operation was rewritten by the idealisation, so there is nothing to preserve.
-/
import proofs.«140220_j49005576848207_1_alg».proof.Defs
import proofs.«140220_j49005576848207_1_alg».proof.Proof.Gen.Kernel
import proofs.«140220_j49005576848207_1_alg».proof.Proof.Gen.Kernel.Skeleton
import proofs.«140220_j49005576848207_1_alg».proof.Proof.Gen.Kernel.Launch
import proofs.«140220_j49005576848207_1_alg».proof.Proof.Gen.Kernel.Points
import proofs.«140220_j49005576848207_1_alg».proof.Proof.Gen.Kernel.Frame
import proofs.«140220_j49005576848207_1_alg».proof.Proof.Gen.KernelIdeal
import proofs.«140220_j49005576848207_1_alg».proof.Proof.Gen.KernelIdeal.Skeleton
import proofs.«140220_j49005576848207_1_alg».proof.Proof.Gen.KernelIdeal.Launch
import proofs.«140220_j49005576848207_1_alg».proof.Proof.Gen.KernelIdeal.Points
import proofs.«140220_j49005576848207_1_alg».proof.Proof.Gen.KernelIdeal.Frame
import proofs.«140220_j49005576848207_1_alg».proof.Proof.Gen.ReferenceIdeal
import proofs.«140220_j49005576848207_1_alg».proof.Proof.Gen.Pre_finite_inputs
import proofs.«140220_j49005576848207_1_alg».proof.Proof.ReferenceRun
import proofs.«140220_j49005576848207_1_alg».proof.Proof.ReferenceRead
import proofs.«140220_j49005576848207_1_alg».proof.Proof.KernelRun
import proofs.«140220_j49005576848207_1_alg».proof.Proof.Fold
import proofs.«140220_j49005576848207_1_alg».proof.Proof.LastStage
import proofs.«140220_j49005576848207_1_alg».proof.Proof.ReferenceResult
import proofs.«140220_j49005576848207_1_alg».proof.Proof.PreReal
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run, the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments, both programs end with the same result array: the kernel's is the
    log-softmax (maximum added back) of the rows of "aggregated features plus bias" over the reference's own stages, the
    reference's the log-softmax (maximum subtracted first) of the same rows, and the rows are rows of real numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W9 m ρ c (Proc.devRef .tc Cert.KernelIdeal.main_v61), Cert.KernelIdeal.Result.run_named m ρ, ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5⟩ := hagree c
  obtain ⟨r0, r2, r3, r4, r5⟩ := Cert.Pre_finite_inputs.Decode.args_real _ _ _ _ _ _ (hpre c)
  beta_reduce
  rw [Cert.ReferenceIdeal.Stretches.result_eq m' c, e0, e1, e2, e3, e4, e5, Cert.KernelIdeal.Fold.result_eq m ρ c]
  exact (Cert.ReferenceIdeal.LastStage.rows_eq _ _ _ _ _ _ _ r0 r2 r3 r4 r5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
